-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2x16x2048x2048 : Shape := ⟨4, ![2, 16, 2048, 2048]⟩
abbrev S256x128 : Shape := ⟨2, ![256, 128]⟩
abbrev S2048x128 : Shape := ⟨2, ![2048, 128]⟩
abbrev S1x2x256x2048 : Shape := ⟨4, ![1, 2, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1x256x2048 : Shape := ⟨4, ![1, 1, 256, 2048]⟩

abbrev nBuf : Space → Nat
  | .hbm => 23
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4096x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S2x16x2048x2048, .f32⟩
  | .hbm, ⟨21, _⟩ => ⟨S4096x1024, .f32⟩
  | .hbm, ⟨22, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S256x128, .bf16⟩
  | .local _ .vmem, ⟨15, _⟩ => ⟨S256x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2x256x2048, .f32⟩
  | .local _ .vmem, ⟨21, _⟩ => ⟨S1x2x256x2048, .f32⟩
  | .local _ .vmem, ⟨22, _⟩ => ⟨S256x128, .f32⟩
  | .local _ .vmem, ⟨23, _⟩ => ⟨S256x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![2, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x2x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  shapeCasts_S2x2048x1024_S4096x1024 : S2x2048x1024.ShapeCasts S4096x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  inb_S1x2x256x2048_S1x1x256x2048_0_0_0_0 : ∀ a, (![0, 0, 0, 0] : Fin 4 → Nat) a + S1x1x256x2048.size a ≤ S1x2x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  slices_S256x128_o0_64_S256x64 : S256x128.Slices ![0, 64] S256x64
  slices_S2048x128_o0_64_S2048x64 : S2048x128.Slices ![0, 64] S2048x64
  inb_S1x2x256x2048_S1x1x256x2048_0_1_0_0 : ∀ a, (![0, 1, 0, 0] : Fin 4 → Nat) a + S1x1x256x2048.size a ≤ S1x2x256x2048.size a
  concatenates_S256x64_S256x64_S256x128_d1 : Shape.Concatenates [S256x64, S256x64] S256x128 1
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x1024.size a
  hwx1_0 : ∀ i : grid1.Coords, EltTy.bits .bf16 = 32 ∨ (Rect.block (s := S4096x1024) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x1024.size a
  hwx1_1 : ∀ i : grid1.Coords, EltTy.bits .bf16 = 32 ∨ (Rect.block (s := S4096x1024) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x1024.size a
  hwx1_2 : ∀ i : grid1.Coords, EltTy.bits .bf16 = 32 ∨ (Rect.block (s := S4096x1024) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x256x2048.size a ≤ S2x16x2048x2048.size a
  hwx1_3 : ∀ i : grid1.Coords, EltTy.bits .f32 = 32 ∨ (Rect.block (s := S2x16x2048x2048) S1x2x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S4096x1024.size a
  hwx1_4 : ∀ i : grid1.Coords, EltTy.bits .f32 = 32 ∨ (Rect.block (s := S4096x1024) S256x128.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10_0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_2) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_0) S1x2x256x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_1) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x2048x1024, .f32⟩
  | .hbm, ⟨8, _⟩ => ⟨S1x1x1024, .f32⟩
  | .hbm, ⟨9, _⟩ => ⟨S2x2048x1024, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x2048x16x64, .f32⟩
  | .hbm, ⟨18, _⟩ => ⟨S2x16x2048x64, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S2x16x2048x2048, .f32⟩
  | .hbm, ⟨26, _⟩ => ⟨S_, .f32⟩
  | .hbm, ⟨27, _⟩ => ⟨S_, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S_, .f32⟩
  | .hbm, ⟨33, _⟩ => ⟨S2x16x2048, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x64, .f32⟩
  | .hbm, ⟨45, _⟩ => ⟨S2x2048x16x64, .f32⟩
  | .hbm, ⟨46, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run, with its two results named.

  The program is four stretches: host operations (a flattening of the input, the three weight transposes, the three
  bias rows), the projection region, the attention region, and one last host operation (the un-flattening of the
  attention output). Every weakly fair execution terminates, and at its end every buffer that outlives the regions
  holds the contents the fold through the four stretches gives it (`Gen.W4`): in particular the two results; the
  seven arguments are as launched.
-/
import proofs.«122255_j2241972928905_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at its end the attention output and the
    attention weights hold the last boundary's contents, and the arguments are as launched. -/
theorem run : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_v11_0) = W4 m ρ c (Proc.devRef .tc main_v11_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       h c _ (mem_uc main_v11_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Results

end
-- ==== Proof.LibMaxSup.lean ====
/-
  Maxima from minus infinity at the ideal values are suprema.

  At the ideal values a float is an extended real, `maximumf` is `max`, and the f32 pattern 0xFF800000 is minus infinity,
  the bottom element. A fold of `max` from the bottom over a finite set is the supremum over the set, so
  - a `vector.multi_reduction <maximumf>` over one axis with the accumulator 0xFF800000, read at a result index, is the
    supremum over that axis's coordinates (`multiReduction_maximumf_negInf_single`), and
  - a host `stablehlo.reduce` with a maximum body from a rank-0 constant 0xFF800000, over any list of axes, read at a
    result index, is the supremum over the operand indices that drop to it (`hostReduce_maximumf_negInf`).
  Suprema need no finiteness hypothesis and no order of evaluation.
-/
import Idealize.ShloMosaic.PureOps.Ideal
import Idealize.ShloMosaic.PureOps.Ideal.Laws
import Idealize.ShloMosaic.PureOps.Reduce
import Mathlib.Data.Finset.Fold

noncomputable section

namespace MaxSup

open Idealize.ShloMosaic

/-- The f32 pattern of minus infinity denotes the bottom of the extended reals. -/
theorem neg_inf_f32 : Ideal.ofBits .f32 0xFF800000#32 = (⊥ : EReal) := by
  simp [Ideal.ofBits, Ideal.ieee]

/-- The same, spelt with the float operations' own `ofBits` read at the ideal values. -/
theorem neg_inf_f32' : (FloatOps.ofBits .f32 0xFF800000#32 : Ideal .f32) = (⊥ : EReal) := neg_inf_f32

/-- The fold of max from the bottom over a finite set is the supremum over the set. -/
theorem fold_max_bot_eq {ι : Type} (s : Finset ι) (f : ι → EReal) :
    s.fold max ⊥ f = ⨆ i, ⨆ _ : i ∈ s, f i := by
  apply le_antisymm
  · exact (Finset.fold_max_le _).mpr ⟨bot_le, fun i hi => le_iSup₂_of_le i hi le_rfl⟩
  · exact iSup₂_le fun i hi => (Finset.le_fold_max _).mpr (Or.inr ⟨i, hi, le_rfl⟩)

/-- Over a whole finite type it is the supremum over the type. -/
theorem fold_max_bot_univ {ι : Type} [Fintype ι] (f : ι → EReal) :
    (Finset.univ : Finset ι).fold max ⊥ f = ⨆ i, f i := by
  rw [fold_max_bot_eq]
  exact iSup_congr fun i => iSup_pos (Finset.mem_univ i)

/-- A `vector.multi_reduction <maximumf>` over ONE axis from minus infinity, read at the ideal values at a result index
    `j`: the supremum, over that axis's coordinates `k`, of the source at `j` with `k` inserted on the reduced axis. The
    accumulator's proof is typed as a printed program carries it. -/
theorem multiReduction_maximumf_negInf_single {s t : Shape} {a : Fin s.rank} (src : FVec Ideal s .f32)
    (h : s.Reduces [a] t) (hφ : FKind.Formats .f32)
    (hacc : (0xFF800000#32 : BitVec 32) = FKind.maximumf.neutral .f32 hφ) (j : t.Idx) :
    multiReduction (F := Ideal) .maximumf [a] t src 0xFF800000#32 h hφ hacc j
      = ⨆ k : Fin (s.size a), src (h.lift j k) := by
  refine (Ideal.multiReduction_maximumf_single src _ h hφ hacc j).trans ?_
  rw [neg_inf_f32', fold_max_bot_univ]
  rfl

/-- A host one-operand reduce with a maximum body from a rank-0 minus infinity, over any axes, read at the ideal values
    at a result index `j`: the supremum of the operand over the indices that drop to `j`. -/
theorem hostReduce_maximumf_negInf {s t : Shape} {axes : List (Fin s.rank)} (x : s.Idx → EReal)
    (h : s.ReducesTo axes t) (hu : 0 < (⟨0, ![]⟩ : Shape).numel) (j : t.Idx) :
    Host.reduce (FloatOps.maximumf (F := Ideal) (φ := .f32)) x (constant (F := Ideal) ⟨0, ![]⟩ .f32 0xFF800000#32) h hu j
      = ⨆ i, ⨆ _ : h.drop i = j, x i := by
  rw [Host.reduce_eq_fold]
  show (Finset.univ.filter fun i => h.drop i = j).fold max (Ideal.ofBits .f32 0xFF800000#32) x = _
  rw [neg_inf_f32, fold_max_bot_eq]
  exact iSup_congr fun i => iSup_congr_Prop (by simp) (fun _ => rfl)

end MaxSup

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.AttnOps.lean ====
/-
  The operations of the attention body, read at an index over the extended reals.

  One grid step of the attention kernel holds a `[256, 128]` block of queries and `[2048, 128]` blocks of keys and
  values: two heads of 64 lanes each. Per head it slices the 64 lanes out, contracts queries with keys over the lanes
  (both operands contracted on their second axis), scales, takes the row supremum and the row sum as `[256]` vectors
  spread back as columns, and contracts the weights with the values. Each of these is read here at explicit
  coordinates.
-/
import proofs.«122255_j2241972928905_2_alg».proof.Proof.Gen.KernelIdeal
import proofs.«122255_j2241972928905_2_alg».proof.Proof.LibMaxSup
import proofs.«122255_j2241972928905_2_alg».proof.Proof.LibRowReduce
import proofs.«122255_j2241972928905_2_alg».proof.Proof.LibColumns
import proofs.«122255_j2241972928905_2_alg».proof.Proof.LibPlainDot
import Idealize.ShloMosaic.PureOps.Ideal.Laws
import Idealize.ShloMosaic.Lib.ValueIdx
import Idealize.ShloMosaic.Lib.Pipeline.Value

noncomputable section

namespace Cert.KernelIdeal.AttnOps

open Cert.KernelIdeal Idealize.ShloMosaic Idealize.ShloMosaic.ValueIdx

/-- Lane `d` of head `h` (`h < 2`) among the 128 lanes of a block. -/
def lane (h : Fin 2) (d : Fin 64) : Fin 128 := ⟨h.val * 64 + d.val, by omega⟩

@[simp] theorem lane_val (h : Fin 2) (d : Fin 64) : (lane h d).val = h.val * 64 + d.val := rfl

/-- A 64-lane slice at lane offset `o` of an `[a, 128]` block reads, at `(p, d)`, the block at `(p, o + d)`. -/
theorem slice64_apply {a : ℕ} (off : Fin 2 → ℕ) (c : Fin 128) (d : Fin 64) (h0 : off 0 = 0) (h1 : c.val = off 1 + d.val)
    (v : (⟨2, ![a, 128]⟩ : Shape).Idx → EReal) (h : (⟨2, ![a, 128]⟩ : Shape).Slices off ⟨2, ![a, 64]⟩) (p : Fin a) :
    extractStridedSlice ⟨2, ![a, 64]⟩ off v h (ix2 p d) = v (ix2 p c) := by
  refine extractStridedSlice_apply off v h (ix2 p d) (ix2 p c) fun ax => ?_
  match ax with
  | ⟨0, _⟩ => show p.val = off 0 + p.val; omega
  | ⟨1, _⟩ => exact h1

theorem qk_lhs0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl

theorem qk_rhs0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl

/-- Queries against keys: both operands contracted over their 64 lanes. -/
theorem qk_apply (a : FVec Ideal S256x64 .bf16) (b : FVec Ideal S2048x64 .bf16) (p : Fin 256) (k : Fin 2048) :
    matmul dot_S256x64_S2048x64_S256x2048_1_1_0_0_n_n none a b (constant S256x2048 .f32 0x00000000#32) (ix2 p k)
      = ∑ d : Fin 64, a (ix2 p d) * b (ix2 k d) := by
  refine (Ideal.matmul_constant_zero_apply dot_S256x64_S2048x64_S256x2048_1_1_0_0_n_n none a b (ix2 p k)).trans ?_
  rw [← Equiv.sum_comp (contrEquiv1 dot_S256x64_S2048x64_S256x2048_1_1_0_0_n_n 64 rfl rfl).symm]
  refine Finset.sum_congr rfl fun d _ => ?_
  have hk := contrEquiv1_symm_val dot_S256x64_S2048x64_S256x2048_1_1_0_0_n_n 64 rfl rfl d
  have el : dot_S256x64_S2048x64_S256x2048_1_1_0_0_n_n.lhsIdx (ix2 p k) ((contrEquiv1 dot_S256x64_S2048x64_S256x2048_1_1_0_0_n_n 64 rfl rfl).symm d) = ix2 p d :=
    funext fun ax => Fin.ext (by
      match ax with
      | ⟨0, _⟩ => exact qk_lhs0 _ _
      | ⟨1, _⟩ => exact (dot_S256x64_S2048x64_S256x2048_1_1_0_0_n_n.lhsIdx_val_of_single rfl _ _).trans hk)
  have er : dot_S256x64_S2048x64_S256x2048_1_1_0_0_n_n.rhsIdx (ix2 p k) ((contrEquiv1 dot_S256x64_S2048x64_S256x2048_1_1_0_0_n_n 64 rfl rfl).symm d) = ix2 k d :=
    funext fun ax => Fin.ext (by
      match ax with
      | ⟨0, _⟩ => exact qk_rhs0 _ _
      | ⟨1, _⟩ => exact (dot_S256x64_S2048x64_S256x2048_1_1_0_0_n_n.rhsIdx_val_of_single rfl _ _).trans hk)
  rw [el, er]

/-- Weights against values: a plain `[256, 2048] · [2048, 64]` product. -/
theorem wv_apply (a : FVec Ideal S256x2048 .bf16) (b : FVec Ideal S2048x64 .bf16) (p : Fin 256) (d : Fin 64) :
    matmul dot_S256x2048_S2048x64_S256x64_1_0_0_1_n_n none a b (constant S256x64 .f32 0x00000000#32) (ix2 p d)
      = ∑ k : Fin 2048, a (ix2 p k) * b (ix2 k d) :=
  PlainDot.matmul_zero_apply dot_S256x2048_S2048x64_S256x64_1_0_0_1_n_n rfl none a b p d

/-- The row supremum: a maximum from minus infinity along the keys. -/
theorem rowsup_apply (v : FVec Ideal S256x2048 .f32) (h : S256x2048.Reduces [1] S256) (hφ : FKind.Formats .f32)
    (hacc : (0xFF800000#32 : BitVec 32) = FKind.maximumf.neutral .f32 hφ) (p : Fin 256) :
    multiReduction (F := Ideal) .maximumf [1] S256 v 0xFF800000#32 h hφ hacc (ix1 p) = ⨆ k : Fin 2048, v (ix2 p k) := by
  refine (MaxSup.multiReduction_maximumf_negInf_single v h hφ hacc (ix1 p)).trans ?_
  exact iSup_congr fun k => congrArg v (RowReduce.lift_row h p k)

/-- The row sum along the keys. -/
theorem rowsum_apply (v : FVec Ideal S256x2048 .f32) (h : S256x2048.Reduces [1] S256) (hφ : FKind.Formats .f32)
    (hacc : (0x00000000#32 : BitVec 32) = FKind.add.neutral .f32 hφ) (p : Fin 256) :
    multiReduction (F := Ideal) .add [1] S256 v 0x00000000#32 h hφ hacc (ix1 p) = ∑ k : Fin 2048, v (ix2 p k) :=
  RowReduce.multiReduction_add_row v _ h hφ hacc p

/-- A `[256]` vector kept as a column and spread along the keys reads the vector at the row. -/
theorem column_apply (v : S256.Idx → EReal) (h1 : S256.ShapeCasts S256x1) (h2 : S256x1.Broadcasts S256x2048)
    (p : Fin 256) (k : Fin 2048) :
    broadcastTo S256x2048 (shapeCast S256x1 v h1) h2 (ix2 p k) = v (ix1 p) :=
  (broadcastTo_a1_ab_apply (shapeCast S256x1 v h1) h2 p k).trans (RowReduce.shapeCast_a_a1_apply v h1 p 0)

/-- A `[256, 2048]` tile cast to one head's slab `[1, 1, 256, 2048]` keeps its entries. -/
theorem slab_apply (v : S256x2048.Idx → EReal) (h : S256x2048.ShapeCasts S1x1x256x2048) (u w : Fin 1) (p : Fin 256)
    (k : Fin 2048) : shapeCast S1x1x256x2048 v h (ix4 u w p k) = v (ix2 p k) :=
  shapeCast_apply v h _ _ (by
    have hu : u.val = 0 := by omega
    have hw : w.val = 0 := by omega
    rw [Shape.rowMajor_val_four, Shape.rowMajor_val_two]
    show p.val * 2048 + k.val = ((u.val * 1 + w.val) * 256 + p.val) * 2048 + k.val
    omega)

/-- Two heads' `[256, 64]` outputs side by side: the first 64 lanes. -/
theorem concat_lo (a b : S256x64.Idx → EReal) (h : Shape.Concatenates [S256x64, S256x64] S256x128 1) (p : Fin 256)
    (d : Fin 64) : concatenate S256x128 1 [⟨S256x64, a⟩, ⟨S256x64, b⟩] h (ix2 p (lane 0 d)) = a (ix2 p d) :=
  concatenate_pair_apply_left (1 : Fin 2) a b h (ix2 p (lane 0 d)) rfl (ix2 p d) fun ax => by
    match ax with
    | ⟨0, _⟩ => rfl
    | ⟨1, _⟩ => show d.val = 0 * 64 + d.val; omega

/-- Two heads' `[256, 64]` outputs side by side: the last 64 lanes. -/
theorem concat_hi (a b : S256x64.Idx → EReal) (h : Shape.Concatenates [S256x64, S256x64] S256x128 1) (p : Fin 256)
    (d : Fin 64) : concatenate S256x128 1 [⟨S256x64, a⟩, ⟨S256x64, b⟩] h (ix2 p (lane 1 d)) = b (ix2 p d) :=
  concatenate_pair_apply_right (1 : Fin 2) a b h (ix2 p (lane 1 d)) rfl rfl (ix2 p d)
    (fun ax hax => by
      match ax with
      | ⟨0, _⟩ => rfl
      | ⟨1, _⟩ => exact absurd rfl hax)
    (by show d.val + 64 = 1 * 64 + d.val; omega)

end Cert.KernelIdeal.AttnOps

end
-- ==== Proof.AttentionSpec.lean ====
/-
  Multi-head attention over the extended reals, entry by entry.

  The activations of the three projections are kept as functions of (batch, position, feature): batch in Fin 2,
  position in Fin 2048, feature in Fin 1024; feature `h * 64 + d` is lane `d` of head `h`. A projection is
  `x · Wᵀ + b`. The score of query position `q` against key position `k` in head `h` is the inner product of the
  two heads' 64 lanes times one eighth (`1 / sqrt 64`); the weights are the softmax of the scores over `k` (shifted by
  their supremum before the exponential, divided by the sum of the exponentials), and the output at a feature is the
  weighted sum of the values at that feature, with the weights of the feature's head.

  A flat `[4096, 1024]` array holds the same activations with row `b * 2048 + s` for batch `b` and position `s`.
-/
import Idealize.ShloMosaic.PureOps.Ideal
import Idealize.ShloMosaic.Lib.ValueIdx

noncomputable section

namespace Attention

open Idealize.ShloMosaic Idealize.ShloMosaic.ValueIdx

/-- Row `b * 2048 + s` of a flat array: batch `b`, position `s`. -/
def row (b : Fin 2) (s : Fin 2048) : Fin 4096 := ⟨b.val * 2048 + s.val, by omega⟩
/-- Feature `h * 64 + d`: lane `d` of head `h`. -/
def col (h : Fin 16) (d : Fin 64) : Fin 1024 := ⟨h.val * 64 + d.val, by omega⟩
/-- The batch of a flat row. -/
def batchOf (r : Fin 4096) : Fin 2 := ⟨r.val / 2048, by omega⟩
/-- The position of a flat row. -/
def posOf (r : Fin 4096) : Fin 2048 := ⟨r.val % 2048, by omega⟩
/-- The head of a feature. -/
def headOf (e : Fin 1024) : Fin 16 := ⟨e.val / 64, by omega⟩
/-- The lane of a feature within its head. -/
def laneOf (e : Fin 1024) : Fin 64 := ⟨e.val % 64, by omega⟩

@[simp] theorem row_val (b : Fin 2) (s : Fin 2048) : (row b s).val = b.val * 2048 + s.val := rfl
@[simp] theorem col_val (h : Fin 16) (d : Fin 64) : (col h d).val = h.val * 64 + d.val := rfl
@[simp] theorem batchOf_val (r : Fin 4096) : (batchOf r).val = r.val / 2048 := rfl
@[simp] theorem posOf_val (r : Fin 4096) : (posOf r).val = r.val % 2048 := rfl
@[simp] theorem headOf_val (e : Fin 1024) : (headOf e).val = e.val / 64 := rfl
@[simp] theorem laneOf_val (e : Fin 1024) : (laneOf e).val = e.val % 64 := rfl

theorem batchOf_row (b : Fin 2) (s : Fin 2048) : batchOf (row b s) = b := Fin.ext (by simp only [batchOf_val, row_val]; omega)
theorem posOf_row (b : Fin 2) (s : Fin 2048) : posOf (row b s) = s := Fin.ext (by simp only [posOf_val, row_val]; omega)
theorem row_batchOf_posOf (r : Fin 4096) : row (batchOf r) (posOf r) = r :=
  Fin.ext (by simp only [batchOf_val, posOf_val, row_val]; omega)
theorem headOf_col (h : Fin 16) (d : Fin 64) : headOf (col h d) = h := Fin.ext (by simp only [headOf_val, col_val]; omega)
theorem laneOf_col (h : Fin 16) (d : Fin 64) : laneOf (col h d) = d := Fin.ext (by simp only [laneOf_val, col_val]; omega)
theorem col_headOf_laneOf (e : Fin 1024) : col (headOf e) (laneOf e) = e :=
  Fin.ext (by simp only [headOf_val, laneOf_val, col_val]; omega)

/-- Activations: (batch, position, feature) ↦ value. -/
abbrev Act := Fin 2 → Fin 2048 → Fin 1024 → EReal

/-- The projection `x · Wᵀ + b`: at (batch, position, feature `e`) the sum over the model dimension of `x` times row
    `e` of `W`, plus `b e`. -/
def proj (x : (⟨3, ![2, 2048, 1024]⟩ : Shape).Idx → EReal) (W : (⟨2, ![1024, 1024]⟩ : Shape).Idx → EReal)
    (b : (⟨1, ![1024]⟩ : Shape).Idx → EReal) : Act :=
  fun bi s e => (∑ d : Fin 1024, x (ix3 bi s d) * W (ix2 e d)) + b (ix1 e)

/-- The activations a flat array holds. -/
def unflat (A : (⟨2, ![4096, 1024]⟩ : Shape).Idx → EReal) : Act := fun b s e => A (ix2 (row b s) e)
/-- The flat array of activations. -/
def flat (Q : Act) : (⟨2, ![4096, 1024]⟩ : Shape).Idx → EReal := fun i => Q (batchOf (i 0)) (posOf (i 0)) (i 1)

theorem unflat_flat (Q : Act) : unflat (flat Q) = Q := by
  funext b s e
  show Q (batchOf (row b s)) (posOf (row b s)) e = Q b s e
  rw [batchOf_row, posOf_row]

theorem flat_apply (Q : Act) (r : Fin 4096) (e : Fin 1024) : flat Q (ix2 r e) = Q (batchOf r) (posOf r) e := rfl

/-- A product of an `[M, 1024]` array with a `[1024, N]` array plus a `[1, N]` row, entry by entry: what one grid
    step of the projection kernel leaves, stated on whole arrays. -/
def dense {M N : ℕ} (X : (⟨2, ![M, 1024]⟩ : Shape).Idx → EReal) (Wt : (⟨2, ![1024, N]⟩ : Shape).Idx → EReal)
    (b : (⟨2, ![1, N]⟩ : Shape).Idx → EReal) : (⟨2, ![M, N]⟩ : Shape).Idx → EReal :=
  fun i => (∑ d : Fin 1024, X (ix2 (i 0) d) * Wt (ix2 d (i 1))) + b (ix2 (0 : Fin 1) (i 1))

/-- One eighth, the reciprocal of the square root of the head dimension 64. -/
def eighth : EReal := ((1 / 8 : ℝ) : EReal)

/-- The scaled score of query position `q` against key position `k` in head `h` of batch `b`. -/
def score (Q K : Act) (b : Fin 2) (h : Fin 16) (q k : Fin 2048) : EReal :=
  (∑ d : Fin 64, Q b q (col h d) * K b k (col h d)) * eighth

/-- The exponential of a score shifted by the supremum of its row. -/
def pexp (Q K : Act) (b : Fin 2) (h : Fin 16) (q k : Fin 2048) : EReal :=
  Ideal.exp (score Q K b h q k - ⨆ k' : Fin 2048, score Q K b h q k')

/-- The attention weight: the shifted exponential over the sum of its row. -/
def wgt (Q K : Act) (b : Fin 2) (h : Fin 16) (q k : Fin 2048) : EReal :=
  Ideal.div (pexp Q K b h q k) (∑ k' : Fin 2048, pexp Q K b h q k')

/-- The attention output at (batch, position, feature): the values at that feature weighted by the feature's head. -/
def outv (Q K V : Act) (b : Fin 2) (s : Fin 2048) (e : Fin 1024) : EReal :=
  ∑ k : Fin 2048, wgt Q K b (headOf e) s k * V b k e

/-- The weights as a `[2, 16, 2048, 2048]` array. -/
def weights (Q K : Act) : (⟨4, ![2, 16, 2048, 2048]⟩ : Shape).Idx → EReal := fun i => wgt Q K (i 0) (i 1) (i 2) (i 3)

/-- The outputs as a `[2, 2048, 1024]` array. -/
def out3 (Q K V : Act) : (⟨3, ![2, 2048, 1024]⟩ : Shape).Idx → EReal := fun i => outv Q K V (i 0) (i 1) (i 2)

theorem weights_apply (Q K : Act) (b : Fin 2) (h : Fin 16) (q k : Fin 2048) :
    weights Q K (ix4 b h q k) = wgt Q K b h q k := rfl

theorem out3_apply (Q K V : Act) (b : Fin 2) (s : Fin 2048) (e : Fin 1024) :
    out3 Q K V (ix3 b s e) = outv Q K V b s e := rfl

/-! ## The constants -/

/-- The float word of `0.125` denotes one eighth. -/
theorem ofBits_eighth : Ideal.ofBits .f32 0x3E000000#32 = eighth := by
  simp [Ideal.ofBits, Ideal.ieee, eighth, -EReal.coe_mul]; norm_num

/-- The float word of `64.0` denotes the real 64. -/
theorem ofBits_64 : Ideal.ofBits .f32 0x42800000#32 = ((64 : ℝ) : EReal) := by
  simp [Ideal.ofBits, Ideal.ieee, -EReal.coe_mul]; norm_num

/-- The float word zero denotes zero. -/
theorem ofBits_zero : Ideal.ofBits .f32 0x00000000#32 = 0 := by
  simp [Ideal.ofBits, Ideal.ieee]

/-- Dividing by the square root of 64 is multiplying by one eighth, on every extended real. -/
theorem div_sqrt_64 (x : EReal) : Ideal.div x (Ideal.sqrt (Ideal.ofBits .f32 0x42800000#32)) = x * eighth := by
  rw [ofBits_64, Ideal.sqrt_coe, if_neg (by norm_num)]
  rw [show Real.sqrt 64 = 8 by
    rw [show (64 : ℝ) = 8 ^ 2 by norm_num, Real.sqrt_sq (by norm_num)]]
  exact Ideal.div_coe (by norm_num) x

end Attention

end
-- ==== Proof.AttnBody.lean ====
/-
  One grid step of the attention kernel, entry by entry.

  With a `[256, 128]` block of queries `x0` and `[2048, 128]` blocks of keys `x1` and values `x2` (two heads of 64 lanes),
  head `h`'s score of query row `p` against key row `k` is the inner product over the head's lanes times one eighth;
  the weight is the exponential of the score less the row's supremum, over the row's sum of those exponentials; the
  head's output at lane `d` is the weights against the values' lane. The body's stored values are these.
-/
import proofs.«122255_j2241972928905_2_alg».proof.Proof.Gen.KernelIdeal.Skeleton
import proofs.«122255_j2241972928905_2_alg».proof.Proof.AttnOps
import proofs.«122255_j2241972928905_2_alg».proof.Proof.AttentionSpec

noncomputable section

namespace Cert.KernelIdeal.AttnBody

open Cert.KernelIdeal Cert.KernelIdeal.Gen Cert.KernelIdeal.AttnOps Idealize.ShloMosaic Idealize.ShloMosaic.ValueIdx

/-- Head `h`'s scaled score of query row `p` against key row `k` within the blocks. -/
def bscore (x0 : S256x128.Idx → EReal) (x1 : S2048x128.Idx → EReal) (h : Fin 2) (p : Fin 256) (k : Fin 2048) : EReal :=
  (∑ d : Fin 64, x0 (ix2 p (lane h d)) * x1 (ix2 k (lane h d))) * Attention.eighth

/-- The exponential of the score shifted by its row's supremum. -/
def bpexp (x0 : S256x128.Idx → EReal) (x1 : S2048x128.Idx → EReal) (h : Fin 2) (p : Fin 256) (k : Fin 2048) : EReal :=
  Ideal.exp (bscore x0 x1 h p k - ⨆ k' : Fin 2048, bscore x0 x1 h p k')

/-- The weight: the shifted exponential over its row's sum. -/
def bwgt (x0 : S256x128.Idx → EReal) (x1 : S2048x128.Idx → EReal) (h : Fin 2) (p : Fin 256) (k : Fin 2048) : EReal :=
  Ideal.div (bpexp x0 x1 h p k) (∑ k' : Fin 2048, bpexp x0 x1 h p k')

/-- Head `h`'s output at row `p`, lane `d`. -/
def bout (x0 : S256x128.Idx → EReal) (x1 x2 : S2048x128.Idx → EReal) (h : Fin 2) (p : Fin 256) (d : Fin 64) : EReal :=
  ∑ k : Fin 2048, bwgt x0 x1 h p k * x2 (ix2 k (lane h d))

/-- The scaled scores of one head as the body computes them: slices, the contraction over the lanes, the scale. -/
theorem scaled_apply (x0 : FVec Ideal S256x128 .bf16) (x1 : FVec Ideal S2048x128 .bf16) (h : Fin 2) (off : Fin 2 → ℕ)
    (h0 : off 0 = 0) (h1 : off 1 = h.val * 64) (hq : S256x128.Slices off S256x64) (hk : S2048x128.Slices off S2048x64)
    (p : Fin 256) (k : Fin 2048) :
    mulf (matmul dot_S256x64_S2048x64_S256x2048_1_1_0_0_n_n none (extractStridedSlice S256x64 off x0 hq) (extractStridedSlice S2048x64 off x1 hk)
        (constant S256x2048 .f32 0x00000000#32)) (broadcast S256x2048 (Scalar.ofBits (F := Ideal) .f32 0x3E000000#32)) (ix2 p k)
      = bscore x0 x1 h p k := by
  show _ * Ideal.ofBits .f32 0x3E000000#32 = _
  rw [Attention.ofBits_eighth]
  refine congrArg (· * Attention.eighth) ?_
  refine (qk_apply _ _ p k).trans (Finset.sum_congr rfl fun d _ => ?_)
  rw [slice64_apply off (lane h d) d h0 (by rw [h1]; rfl) x0 hq p, slice64_apply off (lane h d) d h0 (by rw [h1]; rfl) x1 hk k]

/-- The exponentials of a score tile shifted by its row suprema, as the body computes them. -/
theorem shifted_apply (s : FVec Ideal S256x2048 .f32) (hr : S256x2048.Reduces [1] S256) (hφ : FKind.Formats .f32)
    (hacc : (0xFF800000#32 : BitVec 32) = FKind.maximumf.neutral .f32 hφ) (h1 : S256.ShapeCasts S256x1)
    (h2 : S256x1.Broadcasts S256x2048) (g : Fin 256 → Fin 2048 → EReal) (hg : ∀ p k, s (ix2 p k) = g p k)
    (p : Fin 256) (k : Fin 2048) :
    exp (subf s (broadcastTo S256x2048 (shapeCast S256x1 (multiReduction (F := Ideal) .maximumf [1] S256 s 0xFF800000#32 hr hφ hacc) h1) h2)) (ix2 p k)
      = Ideal.exp (g p k - ⨆ k' : Fin 2048, g p k') := by
  show Ideal.exp (s (ix2 p k) - broadcastTo S256x2048 (shapeCast S256x1 (multiReduction (F := Ideal) .maximumf [1] S256 s 0xFF800000#32 hr hφ hacc) h1) h2 (ix2 p k)) = _
  rw [column_apply, rowsup_apply]
  simp only [hg]

/-- A tile of exponentials divided by its row sums, as the body computes it. -/
theorem normalized_apply (e : FVec Ideal S256x2048 .f32) (hr : S256x2048.Reduces [1] S256) (hφ : FKind.Formats .f32)
    (hacc : (0x00000000#32 : BitVec 32) = FKind.add.neutral .f32 hφ) (h1 : S256.ShapeCasts S256x1)
    (h2 : S256x1.Broadcasts S256x2048) (g : Fin 256 → Fin 2048 → EReal) (hg : ∀ p k, e (ix2 p k) = g p k)
    (p : Fin 256) (k : Fin 2048) :
    divf e (broadcastTo S256x2048 (shapeCast S256x1 (multiReduction (F := Ideal) .add [1] S256 e 0x00000000#32 hr hφ hacc) h1) h2) (ix2 p k)
      = Ideal.div (g p k) (∑ k' : Fin 2048, g p k') := by
  show Ideal.div (e (ix2 p k)) (broadcastTo S256x2048 (shapeCast S256x1 (multiReduction (F := Ideal) .add [1] S256 e 0x00000000#32 hr hφ hacc) h1) h2 (ix2 p k)) = _
  rw [column_apply, rowsum_apply]
  simp only [hg]

theorem hoff0 : (![0, 0] : Fin 2 → ℕ) 1 = (0 : Fin 2).val * 64 := rfl
theorem hoff1 : (![0, 64] : Fin 2 → ℕ) 1 = (1 : Fin 2).val * 64 := rfl

/-- The second head's shifted exponentials. -/
theorem pay11_apply (x0 : FVec Ideal S256x128 .bf16) (x1 : FVec Ideal S2048x128 .bf16) (p : Fin 256) (k : Fin 2048) :
    k1_pay11 (F := Ideal) x0 x1 (ix2 p k) = bpexp x0 x1 1 p k := by
  unfold k1_pay11 k1_pay4 k1_pay5
  simp only [shapeCast_self]
  exact shifted_apply _ _ _ _ _ _ (bscore x0 x1 1)
    (fun p k => scaled_apply x0 x1 1 ![0, 64] rfl hoff1 _ _ p k) p k

/-- The first head's weights. -/
theorem pay7_apply (x0 : FVec Ideal S256x128 .bf16) (x1 : FVec Ideal S2048x128 .bf16) (p : Fin 256) (k : Fin 2048) :
    k1_pay7 (F := Ideal) x0 x1 (ix2 p k) = bwgt x0 x1 0 p k := by
  unfold k1_pay7 k1_pay4 k1_pay5
  simp only [shapeCast_self]
  exact normalized_apply _ _ _ _ _ _ (bpexp x0 x1 0)
    (fun p k => shifted_apply _ _ _ _ _ _ (bscore x0 x1 0)
      (fun p k => scaled_apply x0 x1 0 ![0, 0] rfl hoff0 _ _ p k) p k) p k

/-- The second head's weights, from its exponentials. -/
theorem pay1_11_apply (x0 : FVec Ideal S256x128 .bf16) (x1 : FVec Ideal S2048x128 .bf16) (p : Fin 256) (k : Fin 2048) :
    k1_pay1 (F := Ideal) (k1_pay11 (F := Ideal) x0 x1) (ix2 p k) = bwgt x0 x1 1 p k := by
  unfold k1_pay1
  exact normalized_apply _ _ _ _ _ _ (bpexp x0 x1 1) (fun p k => pay11_apply x0 x1 p k) p k

/-- The first head's slab of the weights block. -/
theorem pay8_apply (x0 : FVec Ideal S256x128 .bf16) (x1 : FVec Ideal S2048x128 .bf16) (u w : Fin 1) (p : Fin 256) (k : Fin 2048) :
    k1_pay8 (F := Ideal) x0 x1 (ix4 u w p k) = bwgt x0 x1 0 p k := by
  unfold k1_pay8
  exact (slab_apply _ _ u w p k).trans (pay7_apply x0 x1 p k)

/-- The second head's slab of the weights block. -/
theorem pay2_apply (x0 : FVec Ideal S256x128 .bf16) (x1 : FVec Ideal S2048x128 .bf16) (u w : Fin 1) (p : Fin 256) (k : Fin 2048) :
    k1_pay2 (F := Ideal) (k1_pay11 (F := Ideal) x0 x1) (ix4 u w p k) = bwgt x0 x1 1 p k := by
  unfold k1_pay2
  exact (slab_apply _ _ u w p k).trans (pay1_11_apply x0 x1 p k)

/-- The first head's output. -/
theorem pay9_apply (x0 : FVec Ideal S256x128 .bf16) (x1 x2 : FVec Ideal S2048x128 .bf16) (p : Fin 256) (d : Fin 64) :
    k1_pay9 (F := Ideal) x0 x1 x2 (ix2 p d) = bout x0 x1 x2 0 p d := by
  unfold k1_pay9 k1_pay6
  simp only [shapeCast_self]
  refine (wv_apply _ _ p d).trans (Finset.sum_congr rfl fun k _ => ?_)
  refine congrArg₂ (· * ·) (pay7_apply x0 x1 p k) ?_
  exact slice64_apply ![0, 0] (lane 0 d) d rfl rfl x2 _ k

/-- The two heads' outputs side by side, as the body stores them. -/
theorem pay3_apply (x0 : FVec Ideal S256x128 .bf16) (x1 x2 : FVec Ideal S2048x128 .bf16) (h : Fin 2) (p : Fin 256) (d : Fin 64) :
    k1_pay3 (F := Ideal) (k1_pay9 (F := Ideal) x0 x1 x2) (k1_pay10 (F := Ideal) x2) (k1_pay11 (F := Ideal) x0 x1) (ix2 p (lane h d)) = bout x0 x1 x2 h p d := by
  unfold k1_pay3
  match h with
  | ⟨0, _⟩ =>
    exact (concat_lo _ _ _ p d).trans (pay9_apply x0 x1 x2 p d)
  | ⟨1, _⟩ =>
    refine (concat_hi _ _ _ p d).trans ?_
    refine (wv_apply _ _ p d).trans (Finset.sum_congr rfl fun k _ => ?_)
    refine congrArg₂ (· * ·) (pay1_11_apply x0 x1 p k) ?_
    unfold k1_pay10 k1_pay6
    simp only [shapeCast_self]
    exact slice64_apply ![0, 64] (lane 1 d) d rfl rfl x2 _ k

end Cert.KernelIdeal.AttnBody

end
-- ==== Proof.AttnRegion.lean ====
/-
  The attention region's two arrays after its run, as functions of the arrays it is entered with.

  The grid is (batch, head pair, query tile): 2 × 8 × 8 points, point `t` being batch `t / 64`, head pair `t / 8 % 8`,
  query tile `t % 8`. There the body sees rows `(t / 64 * 8 + t % 8) * 256 …` and lanes `(t / 8 % 8) * 128 …` of the flat
  queries, all 2048 rows of the batch and the same lanes of the flat keys and values, and writes the weights block
  `[t / 64, 2 (t / 8 % 8) …, 256 (t % 8) …, all keys]` and the output block at the queries' place. A block entry is
  therefore the whole-array attention at the entry's place, and the blocks tile both arrays.
-/
import proofs.«122255_j2241972928905_2_alg».proof.Proof.Gen.KernelIdeal.Frame
import proofs.«122255_j2241972928905_2_alg».proof.Proof.AttnBody
import proofs.«122255_j2241972928905_2_alg».proof.Proof.AttentionSpec
import Idealize.ShloMosaic.Lib.Pipeline.Value

set_option maxRecDepth 16384

noncomputable section

namespace Cert.KernelIdeal.AttnValue

open Cert.KernelIdeal Cert.KernelIdeal.Gen Cert.KernelIdeal.AttnOps Cert.KernelIdeal.AttnBody
open Idealize.ShloMosaic Idealize.ShloMosaic.TcCoe Idealize.ShloMosaic.ValueIdx Idealize.SL.Sem
open Idealize.ShloMosaic.Pipeline (Dat)
open Attention (row col unflat flat score pexp wgt outv weights)

theorem hz2 : (![0, 0] : Fin 2 → Nat) = fun _ => 0 := funext fun a => by fin_cases a <;> rfl

theorem hN : cfg1.N = 128 := rfl

/-- The index maps over the grid, as functions of the point's number. -/
theorem idx_facts : ∀ t : Fin cfg1.N,
    win1_0.index t (0 : Fin 2) = t.val / 64 * 8 + t.val % 8 ∧ win1_0.index t (1 : Fin 2) = t.val / 8 % 8
    ∧ win1_1.index t (0 : Fin 2) = t.val / 64 ∧ win1_1.index t (1 : Fin 2) = t.val / 8 % 8
    ∧ win1_2.index t (0 : Fin 2) = t.val / 64 ∧ win1_2.index t (1 : Fin 2) = t.val / 8 % 8
    ∧ win1_3.index t (0 : Fin 4) = t.val / 64 ∧ win1_3.index t (1 : Fin 4) = t.val / 8 % 8
    ∧ win1_3.index t (2 : Fin 4) = t.val % 8 ∧ win1_3.index t (3 : Fin 4) = 0
    ∧ win1_4.index t (0 : Fin 2) = t.val / 64 * 8 + t.val % 8 ∧ win1_4.index t (1 : Fin 2) = t.val / 8 % 8 :=
  (by decide +kernel : ∀ t : Fin grid1.N, _)

/-- The batch of a grid point. -/
def bOf (t : Fin cfg1.N) : Fin 2 := ⟨t.val / 64, by have ht : t.val < 128 := t.isLt; omega⟩
/-- The head of a grid point's head pair. -/
def hOf (t : Fin cfg1.N) (h : Fin 2) : Fin 16 := ⟨t.val / 8 % 8 * 2 + h.val, by omega⟩
/-- The query position of a row of a grid point's tile. -/
def qOf (t : Fin cfg1.N) (p : Fin 256) : Fin 2048 := ⟨t.val % 8 * 256 + p.val, by omega⟩

variable (V : (c : Dev nD) → (b : Ref sig .tc) → Buf (Elt Ideal) ((c : Thread nD τ).loc b))

/-- The queries' block at a point, read off the flat queries. -/
theorem iblk1_0_apply (c : Dev nD) (t : Fin cfg1.N) (p : Fin 256) (cc : Fin 128) (r : Fin 4096) (e : Fin 1024)
    (hr : r.val = (t.val / 64 * 8 + t.val % 8) * 256 + p.val) (he : e.val = t.val / 8 % 8 * 128 + cc.val) :
    (iblk1 V c 0 t : FVec Ideal S256x128 .bf16) (ix2 p cc) = (V c main_v10_0 : S4096x1024.Idx → EReal) (ix2 r e) := by
  obtain ⟨e0, e1, -⟩ := idx_facts t
  unfold iblk1
  rw [View.read_apply]
  show V c main_v10_0 _ = V c main_v10_0 _
  congr 1
  funext a
  apply Fin.ext
  match a with
  | ⟨0, _⟩ => show win1_0.index t (0 : Fin 2) * 256 + 1 * p.val = r.val; rw [e0, hr]; omega
  | ⟨1, _⟩ => show win1_0.index t (1 : Fin 2) * 128 + 1 * cc.val = e.val; rw [e1, he]; omega

/-- The keys' block at a point, read off the flat keys. -/
theorem iblk1_1_apply (c : Dev nD) (t : Fin cfg1.N) (k : Fin 2048) (cc : Fin 128) (r : Fin 4096) (e : Fin 1024)
    (hr : r.val = t.val / 64 * 2048 + k.val) (he : e.val = t.val / 8 % 8 * 128 + cc.val) :
    (iblk1 V c 1 t : FVec Ideal S2048x128 .bf16) (ix2 k cc) = (V c main_v10_1 : S4096x1024.Idx → EReal) (ix2 r e) := by
  obtain ⟨-, -, e0, e1, -⟩ := idx_facts t
  unfold iblk1
  rw [View.read_apply]
  show V c main_v10_1 _ = V c main_v10_1 _
  congr 1
  funext a
  apply Fin.ext
  match a with
  | ⟨0, _⟩ => show win1_1.index t (0 : Fin 2) * 2048 + 1 * k.val = r.val; rw [e0, hr]; omega
  | ⟨1, _⟩ => show win1_1.index t (1 : Fin 2) * 128 + 1 * cc.val = e.val; rw [e1, he]; omega

/-- The values' block at a point, read off the flat values. -/
theorem iblk1_2_apply (c : Dev nD) (t : Fin cfg1.N) (k : Fin 2048) (cc : Fin 128) (r : Fin 4096) (e : Fin 1024)
    (hr : r.val = t.val / 64 * 2048 + k.val) (he : e.val = t.val / 8 % 8 * 128 + cc.val) :
    (iblk1 V c 2 t : FVec Ideal S2048x128 .bf16) (ix2 k cc) = (V c main_v10_2 : S4096x1024.Idx → EReal) (ix2 r e) := by
  obtain ⟨-, -, -, -, e0, e1, -⟩ := idx_facts t
  unfold iblk1
  rw [View.read_apply]
  show V c main_v10_2 _ = V c main_v10_2 _
  congr 1
  funext a
  apply Fin.ext
  match a with
  | ⟨0, _⟩ => show win1_2.index t (0 : Fin 2) * 2048 + 1 * k.val = r.val; rw [e0, hr]; omega
  | ⟨1, _⟩ => show win1_2.index t (1 : Fin 2) * 128 + 1 * cc.val = e.val; rw [e1, he]; omega

/-- A block's score is the whole arrays' score at the block's place. -/
theorem score_blk (c : Dev nD) (t : Fin cfg1.N) (h : Fin 2) (p : Fin 256) (k : Fin 2048) :
    bscore (iblk1 V c 0 t : FVec Ideal S256x128 .bf16) (iblk1 V c 1 t : FVec Ideal S2048x128 .bf16) h p k
      = score (unflat (V c main_v10_0 : S4096x1024.Idx → EReal)) (unflat (V c main_v10_1 : S4096x1024.Idx → EReal)) (bOf t) (hOf t h) (qOf t p) k := by
  have ht : t.val < 128 := t.isLt
  unfold bscore score unflat
  refine congrArg (· * Attention.eighth) (Finset.sum_congr rfl fun d _ => ?_)
  rw [iblk1_0_apply V c t p (lane h d) (row (bOf t) (qOf t p)) (col (hOf t h) d)
        (by simp only [Attention.row_val, bOf, qOf]; omega) (by simp only [Attention.col_val, hOf, lane_val]; omega),
    iblk1_1_apply V c t k (lane h d) (row (bOf t) k) (col (hOf t h) d)
        (by simp only [Attention.row_val, bOf]) (by simp only [Attention.col_val, hOf, lane_val]; omega)]

/-- A block's weight is the whole arrays' weight at the block's place. -/
theorem wgt_blk (c : Dev nD) (t : Fin cfg1.N) (h : Fin 2) (p : Fin 256) (k : Fin 2048) :
    bwgt (iblk1 V c 0 t : FVec Ideal S256x128 .bf16) (iblk1 V c 1 t : FVec Ideal S2048x128 .bf16) h p k
      = wgt (unflat (V c main_v10_0 : S4096x1024.Idx → EReal)) (unflat (V c main_v10_1 : S4096x1024.Idx → EReal)) (bOf t) (hOf t h) (qOf t p) k := by
  unfold bwgt wgt bpexp pexp
  simp only [score_blk V c t h p]

/-- A block's output is the whole arrays' output at the block's place. -/
theorem out_blk (c : Dev nD) (t : Fin cfg1.N) (h : Fin 2) (p : Fin 256) (d : Fin 64) :
    bout (iblk1 V c 0 t : FVec Ideal S256x128 .bf16) (iblk1 V c 1 t : FVec Ideal S2048x128 .bf16)
        (iblk1 V c 2 t : FVec Ideal S2048x128 .bf16) h p d
      = outv (unflat (V c main_v10_0 : S4096x1024.Idx → EReal)) (unflat (V c main_v10_1 : S4096x1024.Idx → EReal)) (unflat (V c main_v10_2 : S4096x1024.Idx → EReal)) (bOf t) (qOf t p) (col (hOf t h) d) := by
  have ht : t.val < 128 := t.isLt
  unfold bout outv
  rw [Attention.headOf_col]
  refine Finset.sum_congr rfl fun k _ => ?_
  refine congrArg₂ (· * ·) (wgt_blk V c t h p k) ?_
  exact iblk1_2_apply V c t k (lane h d) (row (bOf t) k) (col (hOf t h) d)
    (by simp only [Attention.row_val, bOf]) (by simp only [Attention.col_val, hOf, lane_val]; omega)

/-! ## The weights array -/

/-- The weights block one grid step leaves, from its blocks of queries and keys. -/
def wblock (x0 : S256x128.Idx → EReal) (x1 : S2048x128.Idx → EReal) : S1x2x256x2048.Idx → EReal :=
  fun y => bwgt x0 x1 (y 1) (y 2) (y 3)

theorem wblock_apply (x0 : S256x128.Idx → EReal) (x1 : S2048x128.Idx → EReal) (u : Fin 1) (h : Fin 2) (p : Fin 256)
    (k : Fin 2048) : wblock x0 x1 (ix4 u h p k) = bwgt x0 x1 h p k := rfl

theorem out3_block (x0 : FVec Ideal S256x128 .bf16) (x1 x2 : FVec Ideal S2048x128 .bf16) :
    out1_3 (F := Ideal) x0 x1 x2 = wblock x0 x1 := by
  unfold out1_3
  simp only [View.ld_unit_zero (S := S256x128) hz2, View.ld_unit_zero (S := S2048x128) hz2]
  funext y
  refine View.canon_apply_of_pieces (Val := Elt Ideal) (e := EltTy.f32) (wblock x0 x1) _ ?_ y (cover1_3 _ _ y)
  intro pc hpc
  rcases List.mem_cons.mp hpc with rfl | hpc
  · intro x
    obtain ⟨u, w, p, k, rfl⟩ : ∃ (u : Fin 1) (w : Fin 1) (p : Fin 256) (k : Fin 2048), x = ix4 u w p k :=
      ⟨x 0, x 1, x 2, x 3, eq_ix4 x⟩
    refine (pay2_apply x0 x1 u w p k).trans ?_
    have e : r1_3.emb (ix4 u w p k) = (ix4 (0 : Fin 1) (1 : Fin 2) p k : S1x2x256x2048.Idx) := by
      funext a
      apply Fin.ext
      rw [Rect.emb_apply]
      match a with
      | ⟨0, _⟩ => show 0 + 1 * u.val = 0; omega
      | ⟨1, _⟩ => show 1 + 1 * w.val = 1; omega
      | ⟨2, _⟩ => show 0 + 1 * p.val = p.val; omega
      | ⟨3, _⟩ => show 0 + 1 * k.val = k.val; omega
    show _ = wblock x0 x1 (r1_3.emb (ix4 u w p k))
    rw [e, wblock_apply]
  · rcases List.mem_singleton.mp hpc with rfl
    intro x
    obtain ⟨u, w, p, k, rfl⟩ : ∃ (u : Fin 1) (w : Fin 1) (p : Fin 256) (k : Fin 2048), x = ix4 u w p k :=
      ⟨x 0, x 1, x 2, x 3, eq_ix4 x⟩
    refine (pay8_apply x0 x1 u w p k).trans ?_
    have e : r1_2.emb (ix4 u w p k) = (ix4 (0 : Fin 1) (0 : Fin 2) p k : S1x2x256x2048.Idx) := by
      funext a
      apply Fin.ext
      rw [Rect.emb_apply]
      match a with
      | ⟨0, _⟩ => show 0 + 1 * u.val = 0; omega
      | ⟨1, _⟩ => show 0 + 1 * w.val = 0; omega
      | ⟨2, _⟩ => show 0 + 1 * p.val = p.val; omega
      | ⟨3, _⟩ => show 0 + 1 * k.val = k.val; omega
    show _ = wblock x0 x1 (r1_2.emb (ix4 u w p k))
    rw [e, wblock_apply]

/-- Entry `(0, h, p, k)` of the weights block at point `t` sits at `(t / 64, 2 (t / 8 % 8) + h, 256 (t % 8) + p, k)`. -/
theorem emb3 (t : Fin cfg1.N) (u : Fin 1) (h : Fin 2) (p : Fin 256) (k : Fin 2048) :
    ((cfg1.win 3).blk t).view.emb (ix4 u h p k) = (ix4 (bOf t) (hOf t h) (qOf t p) k : S2x16x2048x2048.Idx) := by
  obtain ⟨-, -, -, -, -, -, e0, e1, e2, e3, -⟩ := idx_facts t
  funext a
  apply Fin.ext
  match a with
  | ⟨0, _⟩ => show win1_3.index t (0 : Fin 4) * 1 + 1 * u.val = t.val / 64; rw [e0]; omega
  | ⟨1, _⟩ => show win1_3.index t (1 : Fin 4) * 2 + 1 * h.val = t.val / 8 % 8 * 2 + h.val; rw [e1]; omega
  | ⟨2, _⟩ => show win1_3.index t (2 : Fin 4) * 256 + 1 * p.val = t.val % 8 * 256 + p.val; rw [e2]; omega
  | ⟨3, _⟩ => show win1_3.index t (3 : Fin 4) * 2048 + 1 * k.val = k.val; rw [e3]; omega

theorem flushed3_eq (c : Dev nD) (t : Fin cfg1.N) :
    (dat1 V c).flushed 3 t = ((cfg1.win 3).blk t).view.read (Elt Ideal)
      (weights (unflat (V c main_v10_0 : S4096x1024.Idx → EReal)) (unflat (V c main_v10_1 : S4096x1024.Idx → EReal)) : S2x16x2048x2048.Idx → EReal) := by
  show (cfg1.win 3).cut (grid1.coords t) ((dat1 V c).after 3 t) = _
  rw [after1_3, out3_block]
  funext j
  obtain ⟨u, h, p, k, rfl⟩ : ∃ (u : Fin 1) (h : Fin 2) (p : Fin 256) (k : Fin 2048), j = ix4 u h p k :=
    ⟨j 0, j 1, j 2, j 3, eq_ix4 j⟩
  refine (wgt_blk V c t h p k).trans ?_
  rw [View.read_apply, emb3 t u h p k]
  rfl

theorem mem_blk3 (t : Fin cfg1.N) (i : S2x16x2048x2048.Idx) :
    i ∈ ((cfg1.win 3).blk t).view.set ↔ ∀ a : Fin 4, win1_3.index t a * S1x2x256x2048.size a ≤ (i a).val ∧ (i a).val < win1_3.index t a * S1x2x256x2048.size a + S1x2x256x2048.size a := by
  show i ∈ ((View.whole main_v11_0).slice (win1_3.rect t)).set ↔ _
  rw [View.set_slice_whole, Rect.mem_set_unit]
  exact Iff.rfl

/-- Every entry of the weights array is in the block of its batch, head pair and query tile. -/
theorem cover3 (i : S2x16x2048x2048.Idx) : ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 2048 := (i 3).isLt
  have hlt : (i 0).val * 64 + (i 1).val / 2 * 8 + (i 2).val / 256 < cfg1.N := by rw [hN]; omega
  refine ⟨⟨(i 0).val * 64 + (i 1).val / 2 * 8 + (i 2).val / 256, hlt⟩, flush1_3 _, ?_⟩
  rw [mem_blk3]
  obtain ⟨-, -, -, -, -, -, e0, e1, e2, e3, -⟩ := idx_facts ⟨(i 0).val * 64 + (i 1).val / 2 * 8 + (i 2).val / 256, hlt⟩
  intro a
  match a with
  | ⟨0, _⟩ => show win1_3.index _ (0 : Fin 4) * 1 ≤ (i 0).val ∧ (i 0).val < win1_3.index _ (0 : Fin 4) * 1 + 1; rw [e0]; show ((i 0).val * 64 + (i 1).val / 2 * 8 + (i 2).val / 256) / 64 * 1 ≤ (i 0).val ∧ (i 0).val < ((i 0).val * 64 + (i 1).val / 2 * 8 + (i 2).val / 256) / 64 * 1 + 1; omega
  | ⟨1, _⟩ => show win1_3.index _ (1 : Fin 4) * 2 ≤ (i 1).val ∧ (i 1).val < win1_3.index _ (1 : Fin 4) * 2 + 2; rw [e1]; show ((i 0).val * 64 + (i 1).val / 2 * 8 + (i 2).val / 256) / 8 % 8 * 2 ≤ (i 1).val ∧ (i 1).val < ((i 0).val * 64 + (i 1).val / 2 * 8 + (i 2).val / 256) / 8 % 8 * 2 + 2; omega
  | ⟨2, _⟩ => show win1_3.index _ (2 : Fin 4) * 256 ≤ (i 2).val ∧ (i 2).val < win1_3.index _ (2 : Fin 4) * 256 + 256; rw [e2]; show ((i 0).val * 64 + (i 1).val / 2 * 8 + (i 2).val / 256) % 8 * 256 ≤ (i 2).val ∧ (i 2).val < ((i 0).val * 64 + (i 1).val / 2 * 8 + (i 2).val / 256) % 8 * 256 + 256; omega
  | ⟨3, _⟩ => show win1_3.index _ (3 : Fin 4) * 2048 ≤ (i 3).val ∧ (i 3).val < win1_3.index _ (3 : Fin 4) * 2048 + 2048; rw [e3]; omega

/-- The weights array after the region: the attention weights of the flat queries and keys it was entered with. -/
theorem final3 (c : Dev nD) : (dat1 V c).arrAt 3 cfg1.N
    = (weights (unflat (V c main_v10_0 : S4096x1024.Idx → EReal)) (unflat (V c main_v10_1 : S4096x1024.Idx → EReal)) : S2x16x2048x2048.Idx → EReal) :=
  (dat1 V c).arrAt_eq_of_cover 3 _ (fun t _ => flushed3_eq V c t) cover3

/-! ## The output array -/

/-- Entry `(p, h * 64 + d)` of the output block at point `t` sits at row `(t / 64) * 2048 + 256 (t % 8) + p`, feature
    `(2 (t / 8 % 8) + h) * 64 + d`. -/
theorem emb4 (t : Fin cfg1.N) (h : Fin 2) (p : Fin 256) (d : Fin 64) :
    ((cfg1.win 4).blk t).view.emb (ix2 p (lane h d)) = (ix2 (row (bOf t) (qOf t p)) (col (hOf t h) d) : S4096x1024.Idx) := by
  obtain ⟨-, -, -, -, -, -, -, -, -, -, e0, e1⟩ := idx_facts t
  have ht : t.val < 128 := t.isLt
  funext a
  apply Fin.ext
  match a with
  | ⟨0, _⟩ => show win1_4.index t (0 : Fin 2) * 256 + 1 * p.val = t.val / 64 * 2048 + (t.val % 8 * 256 + p.val); rw [e0]; omega
  | ⟨1, _⟩ => show win1_4.index t (1 : Fin 2) * 128 + 1 * (h.val * 64 + d.val) = (t.val / 8 % 8 * 2 + h.val) * 64 + d.val; rw [e1]; omega

theorem flushed4_eq (c : Dev nD) (t : Fin cfg1.N) :
    (dat1 V c).flushed 4 t = ((cfg1.win 4).blk t).view.read (Elt Ideal)
      (flat (outv (unflat (V c main_v10_0 : S4096x1024.Idx → EReal)) (unflat (V c main_v10_1 : S4096x1024.Idx → EReal)) (unflat (V c main_v10_2 : S4096x1024.Idx → EReal))) : S4096x1024.Idx → EReal) := by
  show (cfg1.win 4).cut (grid1.coords t) ((dat1 V c).after 4 t) = _
  rw [after1_4]
  unfold out1_4
  rw [View.canon_unit_zero hz2]
  simp only [View.ld_unit_zero (S := S256x128) hz2, View.ld_unit_zero (S := S2048x128) hz2]
  funext j
  obtain ⟨p, cc, rfl⟩ : ∃ (p : Fin 256) (cc : Fin 128), j = ix2 p cc := ⟨j 0, j 1, eq_ix2 j⟩
  obtain ⟨h, d, rfl⟩ : ∃ (h : Fin 2) (d : Fin 64), cc = lane h d :=
    ⟨⟨cc.val / 64, by omega⟩, ⟨cc.val % 64, by omega⟩, Fin.ext (by simp only [lane_val]; omega)⟩
  refine (pay3_apply (iblk1 V c 0 t) (iblk1 V c 1 t) (iblk1 V c 2 t) h p d).trans ?_
  refine (out_blk V c t h p d).trans ?_
  rw [View.read_apply, emb4 t h p d, Attention.flat_apply, Attention.batchOf_row, Attention.posOf_row]
  rfl

theorem mem_blk4 (t : Fin cfg1.N) (i : S4096x1024.Idx) :
    i ∈ ((cfg1.win 4).blk t).view.set ↔ ∀ a : Fin 2, win1_4.index t a * S256x128.size a ≤ (i a).val ∧ (i a).val < win1_4.index t a * S256x128.size a + S256x128.size a := by
  show i ∈ ((View.whole main_v11_1).slice (win1_4.rect t)).set ↔ _
  rw [View.set_slice_whole, Rect.mem_set_unit]
  exact Iff.rfl

/-- Every entry of the output array is in the block of its batch, head pair and query tile. -/
theorem cover4 (i : S4096x1024.Idx) : ∃ t : Fin cfg1.N, (cfg1.win 4).flush t = true ∧ i ∈ ((cfg1.win 4).blk t).view.set := by
  have hi0 : (i 0).val < 4096 := (i 0).isLt
  have hi1 : (i 1).val < 1024 := (i 1).isLt
  have hlt : (i 0).val / 2048 * 64 + (i 1).val / 128 * 8 + (i 0).val % 2048 / 256 < cfg1.N := by rw [hN]; omega
  refine ⟨⟨(i 0).val / 2048 * 64 + (i 1).val / 128 * 8 + (i 0).val % 2048 / 256, hlt⟩, flush1_4 _, ?_⟩
  rw [mem_blk4]
  obtain ⟨-, -, -, -, -, -, -, -, -, -, e0, e1⟩ := idx_facts ⟨(i 0).val / 2048 * 64 + (i 1).val / 128 * 8 + (i 0).val % 2048 / 256, hlt⟩
  intro a
  match a with
  | ⟨0, _⟩ => show win1_4.index _ (0 : Fin 2) * 256 ≤ (i 0).val ∧ (i 0).val < win1_4.index _ (0 : Fin 2) * 256 + 256; rw [e0]; show (((i 0).val / 2048 * 64 + (i 1).val / 128 * 8 + (i 0).val % 2048 / 256) / 64 * 8 + ((i 0).val / 2048 * 64 + (i 1).val / 128 * 8 + (i 0).val % 2048 / 256) % 8) * 256 ≤ (i 0).val ∧ (i 0).val < (((i 0).val / 2048 * 64 + (i 1).val / 128 * 8 + (i 0).val % 2048 / 256) / 64 * 8 + ((i 0).val / 2048 * 64 + (i 1).val / 128 * 8 + (i 0).val % 2048 / 256) % 8) * 256 + 256; omega
  | ⟨1, _⟩ => show win1_4.index _ (1 : Fin 2) * 128 ≤ (i 1).val ∧ (i 1).val < win1_4.index _ (1 : Fin 2) * 128 + 128; rw [e1]; show ((i 0).val / 2048 * 64 + (i 1).val / 128 * 8 + (i 0).val % 2048 / 256) / 8 % 8 * 128 ≤ (i 1).val ∧ (i 1).val < ((i 0).val / 2048 * 64 + (i 1).val / 128 * 8 + (i 0).val % 2048 / 256) / 8 % 8 * 128 + 128; omega

/-- The flat output array after the region: the attention outputs of the flat queries, keys and values it was entered with. -/
theorem final4 (c : Dev nD) : (dat1 V c).arrAt 4 cfg1.N
    = (flat (outv (unflat (V c main_v10_0 : S4096x1024.Idx → EReal)) (unflat (V c main_v10_1 : S4096x1024.Idx → EReal)) (unflat (V c main_v10_2 : S4096x1024.Idx → EReal))) : S4096x1024.Idx → EReal) :=
  (dat1 V c).arrAt_eq_of_cover 4 _ (fun t _ => flushed4_eq V c t) cover4

end Cert.KernelIdeal.AttnValue

end
-- ==== Proof.ProjRegion.lean ====
/-
  The projection region on whole arrays.

  One grid step `t` of the projection kernel reads rows `512 t … 512 t + 511` of the flat activation array and the
  whole of three weight arrays and three bias rows, and stores, for each of the three outputs, the block of rows
  `512 t … 512 t + 511` of `X · Wt + b`. The eight steps' blocks tile the `4096` rows, so after the region each output
  array is `Attention.dense` of the activation array, its weight array and its bias row, whatever the arrays hold when
  the region is entered.
-/
import proofs.«122255_j2241972928905_2_alg».proof.Proof.Gen.KernelIdeal.Frame
import proofs.«122255_j2241972928905_2_alg».proof.Proof.AttentionSpec
import proofs.«122255_j2241972928905_2_alg».proof.Proof.LibPlainDot
import Idealize.ShloMosaic.Lib.Pipeline.Value
import Idealize.ShloMosaic.Lib.ValueLayout

set_option maxRecDepth 16384

noncomputable section

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat)

/-- The kernel's product is the plain 512×1024 by 1024×1024 one. -/
theorem hdot : dot_S512x1024_S1024x1024_S512x1024_1_0_0_1_n_n = DotDims.plain 512 1024 1024 := rfl

/-- What a grid step stores for the first output, at row `p` and column `q` of its block: the row of the activation
    block against the column of the weight block, plus the bias row at `q`. -/
theorem pay2_apply (x0 : Vec Ideal S512x1024 .f32) (x3 : Vec Ideal S1024x1024 .bf16) (x6 : Vec Ideal S1x1024 .f32)
    (p : Fin 512) (q : Fin 1024) :
    k0_pay2 x0 x3 x6 (ix2 p q) = (∑ d : Fin 1024, x0 (ix2 p d) * x3 (ix2 d q)) + x6 (ix2 (0 : Fin 1) q) := by
  unfold k0_pay2 k0_pay1
  simp only [shapeCast_self]
  exact congrArg₂ (· + ·) (PlainDot.matmul_zero_apply _ hdot none (truncf FTy.bf16 x0 bitsLt_bf16_f32) x3 p q)
    (broadcastTo_1b_ab_apply x6 broadcasts_S1x1024_S512x1024 p q)

/-- The same for the second output. -/
theorem pay3_apply (x0 : Vec Ideal S512x1024 .f32) (x3 : Vec Ideal S1024x1024 .bf16) (x6 : Vec Ideal S1x1024 .f32)
    (p : Fin 512) (q : Fin 1024) :
    k0_pay3 x0 x3 x6 (ix2 p q) = (∑ d : Fin 1024, x0 (ix2 p d) * x3 (ix2 d q)) + x6 (ix2 (0 : Fin 1) q) := by
  unfold k0_pay3 k0_pay1
  simp only [shapeCast_self]
  exact congrArg₂ (· + ·) (PlainDot.matmul_zero_apply _ hdot none (truncf FTy.bf16 x0 bitsLt_bf16_f32) x3 p q)
    (broadcastTo_1b_ab_apply x6 broadcasts_S1x1024_S512x1024 p q)

/-- The same for the third output. -/
theorem pay4_apply (x0 : Vec Ideal S512x1024 .f32) (x3 : Vec Ideal S1024x1024 .bf16) (x6 : Vec Ideal S1x1024 .f32)
    (p : Fin 512) (q : Fin 1024) :
    k0_pay4 x0 x3 x6 (ix2 p q) = (∑ d : Fin 1024, x0 (ix2 p d) * x3 (ix2 d q)) + x6 (ix2 (0 : Fin 1) q) := by
  unfold k0_pay4 k0_pay1
  simp only [shapeCast_self]
  exact congrArg₂ (· + ·) (PlainDot.matmul_zero_apply _ hdot none (truncf FTy.bf16 x0 bitsLt_bf16_f32) x3 p q)
    (broadcastTo_1b_ab_apply x6 broadcasts_S1x1024_S512x1024 p q)

theorem hz : (![0, 0] : Fin 2 → Nat) = fun _ => 0 := funext fun a => by fin_cases a <;> rfl

theorem hN : cfg0.N = 8 := rfl

/-- The index maps over the grid: the row-blocked windows (the activations and the three outputs) are at block
    `(t, 0)` at point `t`, the weights and biases at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

/-- The activation block at point `t` is rows `512 t … 512 t + 511` of the activation array. -/
theorem iblk0_0_apply (c : Dev nD) (t : Fin cfg0.N) (p : Fin 512) (d : Fin 1024) (r : Fin 4096)
    (hr : r.val = t.val * 512 + p.val) :
    (iblk0 V c 0 t : Vec Ideal S512x1024 .f32) (ix2 p d) = (V c main_v0 : S4096x1024.Idx → EReal) (ix2 r d) := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * d.val = d.val; rw [e1]; omega

theorem iblk0_1_apply (c : Dev nD) (t : Fin cfg0.N) (d : Fin 1024) (q : Fin 1024) :
    (iblk0 V c 1 t : Vec Ideal S1024x1024 .bf16) (ix2 d q) = (V c main_v2 : S1024x1024.Idx → EReal) (ix2 d q) := by
  obtain ⟨-, -, e0, e1, -⟩ := idx_facts t
  unfold iblk0
  rw [View.read_apply]
  show V c main_v2 _ = V c main_v2 _
  congr 1
  funext a
  apply Fin.ext
  match a with
  | ⟨0, _⟩ => show win0_1.index t (0 : Fin 2) * 1024 + 1 * d.val = d.val; rw [e0]; omega
  | ⟨1, _⟩ => show win0_1.index t (1 : Fin 2) * 1024 + 1 * q.val = q.val; rw [e1]; omega

theorem iblk0_2_apply (c : Dev nD) (t : Fin cfg0.N) (q : Fin 1024) :
    (iblk0 V c 2 t : Vec Ideal S1x1024 .f32) (ix2 (0 : Fin 1) q) = (V c main_v7 : S1x1024.Idx → EReal) (ix2 (0 : Fin 1) q) := by
  obtain ⟨-, -, -, -, e0, e1, -⟩ := idx_facts t
  unfold iblk0
  rw [View.read_apply]
  show V c main_v7 _ = V c main_v7 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = q.val; rw [e1]; omega

theorem iblk0_3_apply (c : Dev nD) (t : Fin cfg0.N) (d : Fin 1024) (q : Fin 1024) :
    (iblk0 V c 3 t : Vec Ideal S1024x1024 .bf16) (ix2 d q) = (V c main_v4 : S1024x1024.Idx → EReal) (ix2 d q) := by
  obtain ⟨-, -, -, -, -, -, e0, e1, -⟩ := idx_facts t
  unfold iblk0
  rw [View.read_apply]
  show V c main_v4 _ = V c main_v4 _
  congr 1
  funext a
  apply Fin.ext
  match a with
  | ⟨0, _⟩ => show win0_3.index t (0 : Fin 2) * 1024 + 1 * d.val = d.val; rw [e0]; omega
  | ⟨1, _⟩ => show win0_3.index t (1 : Fin 2) * 1024 + 1 * q.val = q.val; rw [e1]; omega

theorem iblk0_4_apply (c : Dev nD) (t : Fin cfg0.N) (q : Fin 1024) :
    (iblk0 V c 4 t : Vec Ideal S1x1024 .f32) (ix2 (0 : Fin 1) q) = (V c main_v8 : S1x1024.Idx → EReal) (ix2 (0 : Fin 1) q) := by
  obtain ⟨-, -, -, -, -, -, -, -, e0, e1, -⟩ := idx_facts t
  unfold iblk0
  rw [View.read_apply]
  show V c main_v8 _ = V c main_v8 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * q.val = q.val; rw [e1]; omega

theorem iblk0_5_apply (c : Dev nD) (t : Fin cfg0.N) (d : Fin 1024) (q : Fin 1024) :
    (iblk0 V c 5 t : Vec Ideal S1024x1024 .bf16) (ix2 d q) = (V c main_v6 : S1024x1024.Idx → EReal) (ix2 d q) := by
  obtain ⟨-, -, -, -, -, -, -, -, -, -, e0, e1, -⟩ := idx_facts t
  unfold iblk0
  rw [View.read_apply]
  show V c main_v6 _ = V c main_v6 _
  congr 1
  funext a
  apply Fin.ext
  match a with
  | ⟨0, _⟩ => show win0_5.index t (0 : Fin 2) * 1024 + 1 * d.val = d.val; rw [e0]; omega
  | ⟨1, _⟩ => show win0_5.index t (1 : Fin 2) * 1024 + 1 * q.val = q.val; rw [e1]; omega

theorem iblk0_6_apply (c : Dev nD) (t : Fin cfg0.N) (q : Fin 1024) :
    (iblk0 V c 6 t : Vec Ideal S1x1024 .f32) (ix2 (0 : Fin 1) q) = (V c main_v9 : S1x1024.Idx → EReal) (ix2 (0 : Fin 1) q) := by
  obtain ⟨-, -, -, -, -, -, -, -, -, -, -, -, e0, e1, -⟩ := idx_facts t
  unfold iblk0
  rw [View.read_apply]
  show V c main_v9 _ = V c main_v9 _
  congr 1
  funext a
  apply Fin.ext
  match a with
  | ⟨0, _⟩ => show win0_6.index t (0 : Fin 2) * 1 + 1 * 0 = 0; rw [e0]
  | ⟨1, _⟩ => show win0_6.index t (1 : Fin 2) * 1024 + 1 * q.val = q.val; rw [e1]; omega

/-- Row `p`, column `q` of the first output's block at point `t` is row `512 t + p`, column `q` of its array. -/
theorem emb7 (t : Fin cfg0.N) (p : Fin 512) (q : Fin 1024) (r : Fin 4096) (hr : r.val = t.val * 512 + p.val) :
    ((cfg0.win 7).blk t).view.emb (ix2 p q) = (ix2 r q : S4096x1024.Idx) := by
  obtain ⟨-, -, -, -, -, -, -, -, -, -, -, -, -, -, e0, e1, -⟩ := idx_facts t
  funext a
  apply Fin.ext
  match a with
  | ⟨0, _⟩ => show win0_7.index t (0 : Fin 2) * 512 + 1 * p.val = r.val; rw [e0, hr]; omega
  | ⟨1, _⟩ => show win0_7.index t (1 : Fin 2) * 1024 + 1 * q.val = q.val; rw [e1]; omega

theorem flushed7_eq (c : Dev nD) (t : Fin cfg0.N) :
    (dat0 V c).flushed 7 t = ((cfg0.win 7).blk t).view.read (Elt Ideal)
      (Attention.dense (V c main_v0 : S4096x1024.Idx → EReal) (V c main_v2 : S1024x1024.Idx → EReal) (V c main_v7 : S1x1024.Idx → EReal) : S4096x1024.Idx → EReal) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  have ht : t.val < 8 := t.isLt
  refine (pay2_apply (iblk0 V c 0 t) (iblk0 V c 1 t) (iblk0 V c 2 t) p q).trans ?_
  rw [View.read_apply, emb7 t p q ⟨t.val * 512 + p.val, by omega⟩ rfl]
  refine congrArg₂ (· + ·) (Finset.sum_congr rfl fun d _ => ?_) (iblk0_2_apply V c t q)
  rw [iblk0_0_apply V c t p d ⟨t.val * 512 + p.val, by omega⟩ rfl, iblk0_1_apply V c t d q]

theorem mem_blk7 (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v10_0).slice (win0_7.rect t)).set ↔ _
  rw [View.set_slice_whole, Rect.mem_set_unit]
  exact Iff.rfl

/-- Row `r` of the array is in the block of point `r / 512`. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  refine ⟨⟨(i 0).val / 512, by rw [hN]; omega⟩, flush0_7 _, ?_⟩
  rw [mem_blk7]
  obtain ⟨-, -, -, -, -, -, -, -, -, -, -, -, -, -, e0, e1, -⟩ := idx_facts ⟨(i 0).val / 512, by rw [hN]; omega⟩
  intro a
  match a with
  | ⟨0, _⟩ => show win0_7.index _ (0 : Fin 2) * 512 ≤ (i 0).val ∧ (i 0).val < win0_7.index _ (0 : Fin 2) * 512 + 512; rw [e0]; show (i 0).val / 512 * 512 ≤ (i 0).val ∧ (i 0).val < (i 0).val / 512 * 512 + 512; omega
  | ⟨1, _⟩ => show win0_7.index _ (1 : Fin 2) * 1024 ≤ (i 1).val ∧ (i 1).val < win0_7.index _ (1 : Fin 2) * 1024 + 1024; rw [e1]; omega

/-- The first output array after the region: the product of the activation array with the first weight array plus its
    bias row. -/
theorem final7 (c : Dev nD) : (dat0 V c).arrAt 7 cfg0.N
    = (Attention.dense (V c main_v0 : S4096x1024.Idx → EReal) (V c main_v2 : S1024x1024.Idx → EReal) (V c main_v7 : S1x1024.Idx → EReal) : S4096x1024.Idx → EReal) :=
  (dat0 V c).arrAt_eq_of_cover 7 _ (fun t _ => flushed7_eq V c t) cover7

/-- Row `p`, column `q` of the second output's block at point `t` is row `512 t + p`, column `q` of its array. -/
theorem emb8 (t : Fin cfg0.N) (p : Fin 512) (q : Fin 1024) (r : Fin 4096) (hr : r.val = t.val * 512 + p.val) :
    ((cfg0.win 8).blk t).view.emb (ix2 p q) = (ix2 r q : S4096x1024.Idx) := by
  obtain ⟨-, -, -, -, -, -, -, -, -, -, -, -, -, -, -, -, e0, e1, -⟩ := idx_facts t
  funext a
  apply Fin.ext
  match a with
  | ⟨0, _⟩ => show win0_8.index t (0 : Fin 2) * 512 + 1 * p.val = r.val; rw [e0, hr]; omega
  | ⟨1, _⟩ => show win0_8.index t (1 : Fin 2) * 1024 + 1 * q.val = q.val; rw [e1]; omega

theorem flushed8_eq (c : Dev nD) (t : Fin cfg0.N) :
    (dat0 V c).flushed 8 t = ((cfg0.win 8).blk t).view.read (Elt Ideal)
      (Attention.dense (V c main_v0 : S4096x1024.Idx → EReal) (V c main_v4 : S1024x1024.Idx → EReal) (V c main_v8 : S1x1024.Idx → EReal) : S4096x1024.Idx → EReal) := by
  show (cfg0.win 8).cut (grid0.coords t) ((dat0 V c).after 8 t) = _
  rw [after0_8]
  unfold out0_8
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  have ht : t.val < 8 := t.isLt
  refine (pay3_apply (iblk0 V c 0 t) (iblk0 V c 3 t) (iblk0 V c 4 t) p q).trans ?_
  rw [View.read_apply, emb8 t p q ⟨t.val * 512 + p.val, by omega⟩ rfl]
  refine congrArg₂ (· + ·) (Finset.sum_congr rfl fun d _ => ?_) (iblk0_4_apply V c t q)
  rw [iblk0_0_apply V c t p d ⟨t.val * 512 + p.val, by omega⟩ rfl, iblk0_3_apply V c t d q]

theorem mem_blk8 (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v10_1).slice (win0_8.rect t)).set ↔ _
  rw [View.set_slice_whole, Rect.mem_set_unit]
  exact Iff.rfl

/-- Row `r` of the array is in the block of point `r / 512`. -/
theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  refine ⟨⟨(i 0).val / 512, by rw [hN]; omega⟩, flush0_8 _, ?_⟩
  rw [mem_blk8]
  obtain ⟨-, -, -, -, -, -, -, -, -, -, -, -, -, -, -, -, e0, e1, -⟩ := idx_facts ⟨(i 0).val / 512, by rw [hN]; omega⟩
  intro a
  match a with
  | ⟨0, _⟩ => show win0_8.index _ (0 : Fin 2) * 512 ≤ (i 0).val ∧ (i 0).val < win0_8.index _ (0 : Fin 2) * 512 + 512; rw [e0]; show (i 0).val / 512 * 512 ≤ (i 0).val ∧ (i 0).val < (i 0).val / 512 * 512 + 512; omega
  | ⟨1, _⟩ => show win0_8.index _ (1 : Fin 2) * 1024 ≤ (i 1).val ∧ (i 1).val < win0_8.index _ (1 : Fin 2) * 1024 + 1024; rw [e1]; omega

/-- The second output array after the region: the product of the activation array with the second weight array plus its
    bias row. -/
theorem final8 (c : Dev nD) : (dat0 V c).arrAt 8 cfg0.N
    = (Attention.dense (V c main_v0 : S4096x1024.Idx → EReal) (V c main_v4 : S1024x1024.Idx → EReal) (V c main_v8 : S1x1024.Idx → EReal) : S4096x1024.Idx → EReal) :=
  (dat0 V c).arrAt_eq_of_cover 8 _ (fun t _ => flushed8_eq V c t) cover8

/-- Row `p`, column `q` of the third output's block at point `t` is row `512 t + p`, column `q` of its array. -/
theorem emb9 (t : Fin cfg0.N) (p : Fin 512) (q : Fin 1024) (r : Fin 4096) (hr : r.val = t.val * 512 + p.val) :
    ((cfg0.win 9).blk t).view.emb (ix2 p q) = (ix2 r q : S4096x1024.Idx) := by
  obtain ⟨-, -, -, -, -, -, -, -, -, -, -, -, -, -, -, -, -, -, e0, e1⟩ := idx_facts t
  funext a
  apply Fin.ext
  match a with
  | ⟨0, _⟩ => show win0_9.index t (0 : Fin 2) * 512 + 1 * p.val = r.val; rw [e0, hr]; omega
  | ⟨1, _⟩ => show win0_9.index t (1 : Fin 2) * 1024 + 1 * q.val = q.val; rw [e1]; omega

theorem flushed9_eq (c : Dev nD) (t : Fin cfg0.N) :
    (dat0 V c).flushed 9 t = ((cfg0.win 9).blk t).view.read (Elt Ideal)
      (Attention.dense (V c main_v0 : S4096x1024.Idx → EReal) (V c main_v6 : S1024x1024.Idx → EReal) (V c main_v9 : S1x1024.Idx → EReal) : S4096x1024.Idx → EReal) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  have ht : t.val < 8 := t.isLt
  refine (pay4_apply (iblk0 V c 0 t) (iblk0 V c 5 t) (iblk0 V c 6 t) p q).trans ?_
  rw [View.read_apply, emb9 t p q ⟨t.val * 512 + p.val, by omega⟩ rfl]
  refine congrArg₂ (· + ·) (Finset.sum_congr rfl fun d _ => ?_) (iblk0_6_apply V c t q)
  rw [iblk0_0_apply V c t p d ⟨t.val * 512 + p.val, by omega⟩ rfl, iblk0_5_apply V c t d q]

theorem mem_blk9 (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v10_2).slice (win0_9.rect t)).set ↔ _
  rw [View.set_slice_whole, Rect.mem_set_unit]
  exact Iff.rfl

/-- Row `r` of the array is in the block of point `r / 512`. -/
theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  refine ⟨⟨(i 0).val / 512, by rw [hN]; omega⟩, flush0_9 _, ?_⟩
  rw [mem_blk9]
  obtain ⟨-, -, -, -, -, -, -, -, -, -, -, -, -, -, -, -, -, -, e0, e1⟩ := idx_facts ⟨(i 0).val / 512, by rw [hN]; omega⟩
  intro a
  match a with
  | ⟨0, _⟩ => show win0_9.index _ (0 : Fin 2) * 512 ≤ (i 0).val ∧ (i 0).val < win0_9.index _ (0 : Fin 2) * 512 + 512; rw [e0]; show (i 0).val / 512 * 512 ≤ (i 0).val ∧ (i 0).val < (i 0).val / 512 * 512 + 512; omega
  | ⟨1, _⟩ => show win0_9.index _ (1 : Fin 2) * 1024 ≤ (i 1).val ∧ (i 1).val < win0_9.index _ (1 : Fin 2) * 1024 + 1024; rw [e1]; omega

/-- The third output array after the region: the product of the activation array with the third weight array plus its
    bias row. -/
theorem final9 (c : Dev nD) : (dat0 V c).arrAt 9 cfg0.N
    = (Attention.dense (V c main_v0 : S4096x1024.Idx → EReal) (V c main_v6 : S1024x1024.Idx → EReal) (V c main_v9 : S1x1024.Idx → EReal) : S4096x1024.Idx → EReal) :=
  (dat0 V c).arrAt_eq_of_cover 9 _ (fun t _ => flushed9_eq V c t) cover9

end Cert.KernelIdeal.ProjValue

end
-- ==== Proof.ProjHost.lean ====
/-
  The three projections after the projection region, from the launch memory.

  Before the region the host reshapes the `[2, 2048, 1024]` activations to `[4096, 1024]`, transposes each weight
  matrix and reshapes each bias to a `[1, 1024]` row. Row `r` of the reshaped activations is position `r % 2048` of
  batch `r / 2048`, entry `(d, e)` of a transposed weight matrix is entry `(e, d)` of the matrix, and the bias row at
  `e` is the bias at `e`; so the region's `X · Wt + b` on those arrays is the projection `x · Wᵀ + b` laid out flat.
-/
import proofs.«122255_j2241972928905_2_alg».proof.Proof.ProjRegion
import Idealize.ShloMosaic.Lib.StableHlo.Run
import Idealize.ShloMosaic.Lib.Tactic

set_option maxRecDepth 16384

noncomputable section

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat)
open Idealize.ShloMosaic.StableHlo

variable (m : (ℓ : Loc nD τ sig) → Buf (Elt Ideal) ℓ) (ρ : Dev nD → PrngReg)

/-! ## The arrays the region is entered with, from the launch memory -/

theorem entry_v0 (c : Dev nD) : (V1 m ρ c main_v0 : S4096x1024.Idx → EReal)
    = shapeCast S4096x1024 (m ((c : Thread nD τ).loc main_arg0) : S2x2048x1024.Idx → EReal) shapeCasts_S2x2048x1024_S4096x1024 := by
  dsimp only [Gen.V1, Gen.W1, Gen.hostOps0]; after_results; try rfl

theorem entry_v2 (c : Dev nD) : (V1 m ρ c main_v2 : S1024x1024.Idx → EReal)
    = transpose S1024x1024 [1, 0] (truncf .bf16 (m ((c : Thread nD τ).loc main_arg1) : FVec Ideal S1024x1024 .f32) bitsLt_bf16_f32 : FVec Ideal S1024x1024 .bf16) transposes_S1024x1024_S1024x1024_1_0 := by
  dsimp only [Gen.V1, Gen.W1, Gen.hostOps0]; after_results; try rfl

theorem entry_v7 (c : Dev nD) : (V1 m ρ c main_v7 : S1x1024.Idx → EReal)
    = shapeCast S1x1024 (m ((c : Thread nD τ).loc main_arg2) : S1024.Idx → EReal) shapeCasts_S1024_S1x1024 := by
  dsimp only [Gen.V1, Gen.W1, Gen.hostOps0]; after_results; try rfl

theorem entry_v4 (c : Dev nD) : (V1 m ρ c main_v4 : S1024x1024.Idx → EReal)
    = transpose S1024x1024 [1, 0] (truncf .bf16 (m ((c : Thread nD τ).loc main_arg3) : FVec Ideal S1024x1024 .f32) bitsLt_bf16_f32 : FVec Ideal S1024x1024 .bf16) transposes_S1024x1024_S1024x1024_1_0 := by
  dsimp only [Gen.V1, Gen.W1, Gen.hostOps0]; after_results; try rfl

theorem entry_v8 (c : Dev nD) : (V1 m ρ c main_v8 : S1x1024.Idx → EReal)
    = shapeCast S1x1024 (m ((c : Thread nD τ).loc main_arg4) : S1024.Idx → EReal) shapeCasts_S1024_S1x1024 := by
  dsimp only [Gen.V1, Gen.W1, Gen.hostOps0]; after_results; try rfl

theorem entry_v6 (c : Dev nD) : (V1 m ρ c main_v6 : S1024x1024.Idx → EReal)
    = transpose S1024x1024 [1, 0] (truncf .bf16 (m ((c : Thread nD τ).loc main_arg5) : FVec Ideal S1024x1024 .f32) bitsLt_bf16_f32 : FVec Ideal S1024x1024 .bf16) transposes_S1024x1024_S1024x1024_1_0 := by
  dsimp only [Gen.V1, Gen.W1, Gen.hostOps0]; after_results; try rfl

theorem entry_v9 (c : Dev nD) : (V1 m ρ c main_v9 : S1x1024.Idx → EReal)
    = shapeCast S1x1024 (m ((c : Thread nD τ).loc main_arg6) : S1024.Idx → EReal) shapeCasts_S1024_S1x1024 := by
  dsimp only [Gen.V1, Gen.W1, Gen.hostOps0]; after_results; try rfl

/-! ## The product of the reshaped activations with the transposed weights is the projection, flat -/

/-- Row `r` of the `[2, 2048, 1024]` activations reshaped to `[4096, 1024]` is position `r % 2048` of batch `r / 2048`. -/
theorem reshape_row (x : S2x2048x1024.Idx → EReal) (r : Fin 4096) (d : Fin 1024) :
    shapeCast S4096x1024 x shapeCasts_S2x2048x1024_S4096x1024 (ix2 r d)
      = x (ix3 (Attention.batchOf r) (Attention.posOf r) d) :=
  shapeCast_apply x _ _ _ (by
    rw [Shape.rowMajor_val_two, Shape.rowMajor_val_three]
    show ((r.val / 2048) * 2048 + r.val % 2048) * 1024 + d.val = r.val * 1024 + d.val
    have h : r.val / 2048 * 2048 + r.val % 2048 = r.val := by omega
    rw [h])

/-- `dense` of the reshaped activations, the transposed weights and the bias as a row is the projection `x · Wᵀ + b`
    laid out flat. -/
theorem dense_eq_flat_proj (x : S2x2048x1024.Idx → EReal) (W : S1024x1024.Idx → EReal) (b : S1024.Idx → EReal) :
    (Attention.dense (shapeCast S4096x1024 x shapeCasts_S2x2048x1024_S4096x1024)
        (transpose S1024x1024 [1, 0] (truncf .bf16 (W : FVec Ideal S1024x1024 .f32) bitsLt_bf16_f32 : FVec Ideal S1024x1024 .bf16) transposes_S1024x1024_S1024x1024_1_0)
        (shapeCast S1x1024 b shapeCasts_S1024_S1x1024) : S4096x1024.Idx → EReal)
      = Attention.flat (Attention.proj x W b) := by
  funext i
  obtain ⟨r, e, rfl⟩ : ∃ (r : Fin 4096) (e : Fin 1024), i = ix2 r e := ⟨i 0, i 1, eq_ix2 i⟩
  rw [Attention.flat_apply]
  show (∑ d : Fin 1024, shapeCast S4096x1024 x shapeCasts_S2x2048x1024_S4096x1024 (ix2 r d)
          * transpose S1024x1024 [1, 0] (truncf .bf16 (W : FVec Ideal S1024x1024 .f32) bitsLt_bf16_f32 : FVec Ideal S1024x1024 .bf16) transposes_S1024x1024_S1024x1024_1_0 (ix2 d e))
        + shapeCast S1x1024 b shapeCasts_S1024_S1x1024 (ix2 (0 : Fin 1) e)
      = (∑ d : Fin 1024, x (ix3 (Attention.batchOf r) (Attention.posOf r) d) * W (ix2 e d)) + b (ix1 e)
  refine congrArg₂ (· + ·) (Finset.sum_congr rfl fun d _ => ?_) (shapeCast_a_1a_apply b shapeCasts_S1024_S1x1024 0 e)
  rw [reshape_row x r d, transpose_ix2_apply]
  rfl

/-! ## The three projections after the region -/

/-- The queries after the region: the projection of the launch arguments 0, 1, 2, flat. -/
theorem q_flat (c : Dev nD) : W2 m ρ c (Proc.devRef .tc main_v10_0)
    = Attention.flat (Attention.proj (m ((c : Thread nD τ).loc main_arg0)) (m ((c : Thread nD τ).loc main_arg1)) (m ((c : Thread nD τ).loc main_arg2))) := by
  refine (W2_arr m ρ c 7).trans ?_
  rw [final7 (V1 m ρ) c, entry_v0 m ρ c, entry_v2 m ρ c, entry_v7 m ρ c]
  exact dense_eq_flat_proj _ _ _

/-- The keys after the region: the projection of the launch arguments 0, 3, 4, flat. -/
theorem k_flat (c : Dev nD) : W2 m ρ c (Proc.devRef .tc main_v10_1)
    = Attention.flat (Attention.proj (m ((c : Thread nD τ).loc main_arg0)) (m ((c : Thread nD τ).loc main_arg3)) (m ((c : Thread nD τ).loc main_arg4))) := by
  refine (W2_arr m ρ c 8).trans ?_
  rw [final8 (V1 m ρ) c, entry_v0 m ρ c, entry_v4 m ρ c, entry_v8 m ρ c]
  exact dense_eq_flat_proj _ _ _

/-- The values after the region: the projection of the launch arguments 0, 5, 6, flat. -/
theorem v_flat (c : Dev nD) : W2 m ρ c (Proc.devRef .tc main_v10_2)
    = Attention.flat (Attention.proj (m ((c : Thread nD τ).loc main_arg0)) (m ((c : Thread nD τ).loc main_arg5)) (m ((c : Thread nD τ).loc main_arg6))) := by
  refine (W2_arr m ρ c 9).trans ?_
  rw [final9 (V1 m ρ) c, entry_v0 m ρ c, entry_v6 m ρ c, entry_v9 m ρ c]
  exact dense_eq_flat_proj _ _ _

end Cert.KernelIdeal.ProjValue

end
-- ==== Proof.KernelValue.lean ====
/-
  The idealized kernel's two results as functions of its arguments.

  After the projection region the three flat arrays hold the projections of the input (one flat row per batch and
  position); the attention region leaves the attention weights of the flat queries and keys and, flat, the attention
  outputs; the last host operation un-flattens the outputs. So the weights result is the attention weights of the
  three projections and the output result their attention output, entry by entry.
-/
import proofs.«122255_j2241972928905_2_alg».proof.Proof.KernelRun
import proofs.«122255_j2241972928905_2_alg».proof.Proof.AttnRegion
import proofs.«122255_j2241972928905_2_alg».proof.Proof.ProjHost
import proofs.«122255_j2241972928905_2_alg».proof.Proof.AttentionSpec
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The queries, keys and values: the three projections of the input. -/
abbrev Qa (c : Dev nD) : Attention.Act := Attention.proj (m ((c : Thread nD τ).loc main_arg0)) (m ((c : Thread nD τ).loc main_arg1)) (m ((c : Thread nD τ).loc main_arg2))
abbrev Ka (c : Dev nD) : Attention.Act := Attention.proj (m ((c : Thread nD τ).loc main_arg0)) (m ((c : Thread nD τ).loc main_arg3)) (m ((c : Thread nD τ).loc main_arg4))
abbrev Va (c : Dev nD) : Attention.Act := Attention.proj (m ((c : Thread nD τ).loc main_arg0)) (m ((c : Thread nD τ).loc main_arg5)) (m ((c : Thread nD τ).loc main_arg6))

/-- The weights result: no later operation writes it, and the attention region leaves the weights of the flat queries
    and keys, which hold the projections. -/
theorem weights_final (c : Dev nD) :
    W4 m ρ c (Proc.devRef .tc main_v11_0) = (Attention.weights (Qa m c) (Ka m c) : S2x16x2048x2048.Idx → EReal) :=
  calc W4 m ρ c (Proc.devRef .tc main_v11_0)
    _ = W3 m ρ c (Proc.devRef .tc main_v11_0) := StableHlo.after_of_forall_not_mem (b := Proc.devRef .tc main_v11_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = (dat1 (V2 m ρ) c).arrAt 3 cfg1.N := W3_arr m ρ c 3
    _ = Attention.weights (Attention.unflat (V2 m ρ c main_v10_0 : S4096x1024.Idx → EReal))
          (Attention.unflat (V2 m ρ c main_v10_1 : S4096x1024.Idx → EReal)) := AttnValue.final3 (V2 m ρ) c
    _ = _ := by
      rw [show (V2 m ρ c main_v10_0 : S4096x1024.Idx → EReal) = Attention.flat (Qa m c) from ProjValue.q_flat m ρ c,
        show (V2 m ρ c main_v10_1 : S4096x1024.Idx → EReal) = Attention.flat (Ka m c) from ProjValue.k_flat m ρ c,
        Attention.unflat_flat, Attention.unflat_flat]

/-- The flat output array the attention region leaves. -/
theorem flat_out_final (c : Dev nD) :
    W3 m ρ c (Proc.devRef .tc main_v11_1) = (Attention.flat (Attention.outv (Qa m c) (Ka m c) (Va m c)) : S4096x1024.Idx → EReal) :=
  calc W3 m ρ c (Proc.devRef .tc main_v11_1)
    _ = (dat1 (V2 m ρ) c).arrAt 4 cfg1.N := W3_arr m ρ c 4
    _ = Attention.flat (Attention.outv (Attention.unflat (V2 m ρ c main_v10_0 : S4096x1024.Idx → EReal))
          (Attention.unflat (V2 m ρ c main_v10_1 : S4096x1024.Idx → EReal))
          (Attention.unflat (V2 m ρ c main_v10_2 : S4096x1024.Idx → EReal))) := AttnValue.final4 (V2 m ρ) c
    _ = _ := by
      rw [show (V2 m ρ c main_v10_0 : S4096x1024.Idx → EReal) = Attention.flat (Qa m c) from ProjValue.q_flat m ρ c,
        show (V2 m ρ c main_v10_1 : S4096x1024.Idx → EReal) = Attention.flat (Ka m c) from ProjValue.k_flat m ρ c,
        show (V2 m ρ c main_v10_2 : S4096x1024.Idx → EReal) = Attention.flat (Va m c) from ProjValue.v_flat m ρ c,
        Attention.unflat_flat, Attention.unflat_flat, Attention.unflat_flat]

/-- The output result: the flat outputs un-flattened. -/
theorem out_final (c : Dev nD) :
    W4 m ρ c (Proc.devRef .tc main_v12) = (Attention.out3 (Qa m c) (Ka m c) (Va m c) : S2x2048x1024.Idx → EReal) := by
  have e : W4 m ρ c (Proc.devRef .tc main_v12)
      = shapeCast S2x2048x1024 (W3 m ρ c (Proc.devRef .tc main_v11_1) : S4096x1024.Idx → EReal) shapeCasts_S4096x1024_S2x2048x1024 := by
    dsimp only [W4, hostOps2]
    after_results
    rfl
  rw [e, flat_out_final]
  funext i
  obtain ⟨b, s, f, rfl⟩ : ∃ (b : Fin 2) (s : Fin 2048) (f : Fin 1024), i = ix3 b s f := ⟨i 0, i 1, i 2, eq_ix3 i⟩
  rw [shapeCast_apply _ shapeCasts_S4096x1024_S2x2048x1024 (ix3 b s f) (ix2 (Attention.row b s) f) (by
    rw [Shape.rowMajor_val_three, Shape.rowMajor_val_two]
    show (b.val * 2048 + s.val) * 1024 + f.val = (b.val * 2048 + s.val) * 1024 + f.val
    rfl)]
  rw [Attention.flat_apply, Attention.batchOf_row, Attention.posOf_row]
  rfl

end Cert.KernelIdeal.Results

end
-- ==== Proof.RefProj.lean ====
import proofs.«122255_j2241972928905_2_alg».proof.Proof.Gen.ReferenceIdeal.Read
import proofs.«122255_j2241972928905_2_alg».proof.Proof.AttentionSpec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-!
  The three projections of the reference, read entry by entry.

  Each is a product with the transposed weight plus the bias row, reshaped to [2, 2048, 16, 64] and transposed to
  [2, 16, 2048, 64]: the entry at (batch b, head h, position s, lane d) is the projection at (b, s, feature h * 64 + d).
-/

/-! ### The query projection: stages v0 … v5 -/

/-- The transpose [0, 2, 1, 3] reads (b, h, s, d) at (b, s, h, d). -/
theorem idx_v5 (b : Fin 2) (h : Fin 16) (s : Fin 2048) (d : Fin 64) :
    Read.idx_main_v5 (ix4 b h s d) = ix4 b s h d :=
  funext fun a => Fin.ext (by match a with | ⟨0, _⟩ => rfl | ⟨1, _⟩ => rfl | ⟨2, _⟩ => rfl | ⟨3, _⟩ => rfl)

/-- The reshape [2, 2048, 1024] → [2, 2048, 16, 64] reads (b, s, h, d) at (b, s, h * 64 + d). -/
theorem idx_v4 (b : Fin 2) (s : Fin 2048) (h : Fin 16) (d : Fin 64) :
    Read.idx_main_v4 (ix4 b s h d) = ix3 b s (Attention.col h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

theorem lidx_v0 (b : Fin 2) (s : Fin 2048) (e k : Fin 1024) :
    Read.lidx_main_v0 (ix3 b s e) k = ix3 b s k :=
  funext fun a => Fin.ext (by match a with | ⟨0, _⟩ => rfl | ⟨1, _⟩ => rfl | ⟨2, _⟩ => rfl)

theorem ridx_v0 (b : Fin 2) (s : Fin 2048) (e k : Fin 1024) :
    Read.ridx_main_v0 (ix3 b s e) k = ix2 e k :=
  funext fun a => Fin.ext (by match a with | ⟨0, _⟩ => rfl | ⟨1, _⟩ => rfl)

theorem idx_v1v2 (b : Fin 2) (s : Fin 2048) (e : Fin 1024) :
    Read.idx_main_v1 (Read.idx_main_v2 (ix3 b s e)) = ix1 e :=
  funext fun a => Fin.ext (by match a with | ⟨0, _⟩ => rfl)

/-- The query projection after the split into heads, at (batch, head, position, lane). -/
theorem v5_at (x : (⟨S2x2048x1024, .f32⟩ : BufTy).Contents (Elt Ideal)) (W : (⟨S1024x1024, .f32⟩ : BufTy).Contents (Elt Ideal))
    (bias : (⟨S1024, .f32⟩ : BufTy).Contents (Elt Ideal)) (b : Fin 2) (h : Fin 16) (s : Fin 2048) (d : Fin 64) :
    Read.val_main_v5 (F := Ideal) x W bias (ix4 b h s d) = Attention.proj x W bias b s (Attention.col h d) := by
  rw [Read.val_main_v5_apply, idx_v5, Read.val_main_v4_apply, idx_v4, Read.val_main_v3_apply,
    Read.val_main_v0_apply, Read.val_main_v2_apply, Read.val_main_v1_apply, idx_v1v2]
  show (∑ k : Fin 1024, _) + bias (ix1 (Attention.col h d)) = _
  unfold Attention.proj
  refine congrArg (· + bias (ix1 (Attention.col h d))) (Finset.sum_congr rfl fun k _ => ?_)
  rw [lidx_v0, ridx_v0]

/-! ### The key projection: stages v6 … v11 -/

/-- The transpose [0, 2, 1, 3] reads (b, h, s, d) at (b, s, h, d). -/
theorem idx_v11 (b : Fin 2) (h : Fin 16) (s : Fin 2048) (d : Fin 64) :
    Read.idx_main_v11 (ix4 b h s d) = ix4 b s h d :=
  funext fun a => Fin.ext (by match a with | ⟨0, _⟩ => rfl | ⟨1, _⟩ => rfl | ⟨2, _⟩ => rfl | ⟨3, _⟩ => rfl)

/-- The reshape [2, 2048, 1024] → [2, 2048, 16, 64] reads (b, s, h, d) at (b, s, h * 64 + d). -/
theorem idx_v10 (b : Fin 2) (s : Fin 2048) (h : Fin 16) (d : Fin 64) :
    Read.idx_main_v10 (ix4 b s h d) = ix3 b s (Attention.col h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

theorem lidx_v6 (b : Fin 2) (s : Fin 2048) (e k : Fin 1024) :
    Read.lidx_main_v6 (ix3 b s e) k = ix3 b s k :=
  funext fun a => Fin.ext (by match a with | ⟨0, _⟩ => rfl | ⟨1, _⟩ => rfl | ⟨2, _⟩ => rfl)

theorem ridx_v6 (b : Fin 2) (s : Fin 2048) (e k : Fin 1024) :
    Read.ridx_main_v6 (ix3 b s e) k = ix2 e k :=
  funext fun a => Fin.ext (by match a with | ⟨0, _⟩ => rfl | ⟨1, _⟩ => rfl)

theorem idx_v7v8 (b : Fin 2) (s : Fin 2048) (e : Fin 1024) :
    Read.idx_main_v7 (Read.idx_main_v8 (ix3 b s e)) = ix1 e :=
  funext fun a => Fin.ext (by match a with | ⟨0, _⟩ => rfl)

/-- The key projection after the split into heads, at (batch, head, position, lane). -/
theorem v11_at (x : (⟨S2x2048x1024, .f32⟩ : BufTy).Contents (Elt Ideal)) (W : (⟨S1024x1024, .f32⟩ : BufTy).Contents (Elt Ideal))
    (bias : (⟨S1024, .f32⟩ : BufTy).Contents (Elt Ideal)) (b : Fin 2) (h : Fin 16) (s : Fin 2048) (d : Fin 64) :
    Read.val_main_v11 (F := Ideal) x W bias (ix4 b h s d) = Attention.proj x W bias b s (Attention.col h d) := by
  rw [Read.val_main_v11_apply, idx_v11, Read.val_main_v10_apply, idx_v10, Read.val_main_v9_apply,
    Read.val_main_v6_apply, Read.val_main_v8_apply, Read.val_main_v7_apply, idx_v7v8]
  show (∑ k : Fin 1024, _) + bias (ix1 (Attention.col h d)) = _
  unfold Attention.proj
  refine congrArg (· + bias (ix1 (Attention.col h d))) (Finset.sum_congr rfl fun k _ => ?_)
  rw [lidx_v6, ridx_v6]

/-! ### The value projection: stages v12 … v17 -/

/-- The transpose [0, 2, 1, 3] reads (b, h, s, d) at (b, s, h, d). -/
theorem idx_v17 (b : Fin 2) (h : Fin 16) (s : Fin 2048) (d : Fin 64) :
    Read.idx_main_v17 (ix4 b h s d) = ix4 b s h d :=
  funext fun a => Fin.ext (by match a with | ⟨0, _⟩ => rfl | ⟨1, _⟩ => rfl | ⟨2, _⟩ => rfl | ⟨3, _⟩ => rfl)

/-- The reshape [2, 2048, 1024] → [2, 2048, 16, 64] reads (b, s, h, d) at (b, s, h * 64 + d). -/
theorem idx_v16 (b : Fin 2) (s : Fin 2048) (h : Fin 16) (d : Fin 64) :
    Read.idx_main_v16 (ix4 b s h d) = ix3 b s (Attention.col h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

theorem lidx_v12 (b : Fin 2) (s : Fin 2048) (e k : Fin 1024) :
    Read.lidx_main_v12 (ix3 b s e) k = ix3 b s k :=
  funext fun a => Fin.ext (by match a with | ⟨0, _⟩ => rfl | ⟨1, _⟩ => rfl | ⟨2, _⟩ => rfl)

theorem ridx_v12 (b : Fin 2) (s : Fin 2048) (e k : Fin 1024) :
    Read.ridx_main_v12 (ix3 b s e) k = ix2 e k :=
  funext fun a => Fin.ext (by match a with | ⟨0, _⟩ => rfl | ⟨1, _⟩ => rfl)

theorem idx_v13v14 (b : Fin 2) (s : Fin 2048) (e : Fin 1024) :
    Read.idx_main_v13 (Read.idx_main_v14 (ix3 b s e)) = ix1 e :=
  funext fun a => Fin.ext (by match a with | ⟨0, _⟩ => rfl)

/-- The value projection after the split into heads, at (batch, head, position, lane). -/
theorem v17_at (x : (⟨S2x2048x1024, .f32⟩ : BufTy).Contents (Elt Ideal)) (W : (⟨S1024x1024, .f32⟩ : BufTy).Contents (Elt Ideal))
    (bias : (⟨S1024, .f32⟩ : BufTy).Contents (Elt Ideal)) (b : Fin 2) (h : Fin 16) (s : Fin 2048) (d : Fin 64) :
    Read.val_main_v17 (F := Ideal) x W bias (ix4 b h s d) = Attention.proj x W bias b s (Attention.col h d) := by
  rw [Read.val_main_v17_apply, idx_v17, Read.val_main_v16_apply, idx_v16, Read.val_main_v15_apply,
    Read.val_main_v12_apply, Read.val_main_v14_apply, Read.val_main_v13_apply, idx_v13v14]
  show (∑ k : Fin 1024, _) + bias (ix1 (Attention.col h d)) = _
  unfold Attention.proj
  refine congrArg (· + bias (ix1 (Attention.col h d))) (Finset.sum_congr rfl fun k _ => ?_)
  rw [lidx_v12, ridx_v12]

end Cert.ReferenceIdeal.RefValue

end
-- ==== Proof.RefScores.lean ====
import proofs.«122255_j2241972928905_2_alg».proof.Proof.Gen.ReferenceIdeal.Read
import proofs.«122255_j2241972928905_2_alg».proof.Proof.AttentionSpec
import proofs.«122255_j2241972928905_2_alg».proof.Proof.RefProj

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-!
  The scaled scores of the reference, read entry by entry.

  The batched product of the query and key heads over their 64 lanes, divided by the square root of 64: at
  (batch b, head h, query position q, key position k) it is the inner product of the two heads' lanes times one eighth.
-/

theorem lidx_v18 (b : Fin 2) (h : Fin 16) (q k : Fin 2048) (d : Fin 64) :
    Read.lidx_main_v18 (ix4 b h q k) d = ix4 b h q d :=
  funext fun a => Fin.ext (by match a with | ⟨0, _⟩ => rfl | ⟨1, _⟩ => rfl | ⟨2, _⟩ => rfl | ⟨3, _⟩ => rfl)

theorem ridx_v18 (b : Fin 2) (h : Fin 16) (q k : Fin 2048) (d : Fin 64) :
    Read.ridx_main_v18 (ix4 b h q k) d = ix4 b h k d :=
  funext fun a => Fin.ext (by match a with | ⟨0, _⟩ => rfl | ⟨1, _⟩ => rfl | ⟨2, _⟩ => rfl | ⟨3, _⟩ => rfl)

/-- The broadcast square root of 64, at every index. -/
theorem v20_at (i : S2x16x2048x2048.Idx) :
    Read.val_main_v20 (F := Ideal) i = Ideal.sqrt (Ideal.ofBits .f32 0x42800000#32) := by
  rw [Read.val_main_v20_apply, Read.val_main_v19_apply, Read.val_main_cst_apply]
  rfl

/-- The scaled score at (batch, head, query position, key position). -/
theorem v21_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (b : Fin 2) (h : Fin 16) (q k : Fin 2048) :
    Read.val_main_v21 (F := Ideal) x Wq bq Wk bk (ix4 b h q k)
      = Attention.score (Attention.proj x Wq bq) (Attention.proj x Wk bk) b h q k := by
  rw [Read.val_main_v21_apply, v20_at, Read.val_main_v18_apply]
  show Ideal.div _ _ = _
  rw [Attention.div_sqrt_64]
  unfold Attention.score
  refine congrArg (· * Attention.eighth) (Finset.sum_congr rfl fun d _ => ?_)
  rw [lidx_v18, ridx_v18, v5_at, v11_at]

end Cert.ReferenceIdeal.RefValue

end
-- ==== Proof.RefWeights.lean ====
import proofs.«122255_j2241972928905_2_alg».proof.Proof.Gen.ReferenceIdeal.Read
import proofs.«122255_j2241972928905_2_alg».proof.Proof.AttentionSpec
import proofs.«122255_j2241972928905_2_alg».proof.Proof.LibMaxSup
import proofs.«122255_j2241972928905_2_alg».proof.Proof.RefScores

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-!
  The attention weights of the reference, read entry by entry.

  Along the key positions: the maximum of the scores from minus infinity is their supremum (and the further maximum with
  minus infinity changes nothing); the scores minus it, exponentiated, are the shifted exponentials; their sum from zero
  is the row sum; the quotient is the weight.
-/

/-- Dropping the last axis of [2, 16, 2048, 2048]. -/
theorem reduces_d3 : S2x16x2048x2048.Reduces [3] S2x16x2048 := by decide

/-- The index over (b, h, q) with k inserted on the last axis is (b, h, q, k). -/
theorem lift_d3 (b : Fin 2) (h : Fin 16) (q k : Fin 2048) :
    reduces_d3.lift (ix3 b h q) k = ix4 b h q k := by
  funext c
  apply Fin.ext
  refine (reduces_d3.lift_val (ix3 b h q) k c).trans ?_
  match c with
  | ⟨0, _⟩ => rfl
  | ⟨1, _⟩ => rfl
  | ⟨2, _⟩ => rfl
  | ⟨3, _⟩ => rfl

/-- The row maximum from minus infinity is the supremum of the row's scores. -/
theorem v22_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (b : Fin 2) (h : Fin 16) (q : Fin 2048) :
    Read.val_main_v22 (F := Ideal) x Wq bq Wk bk (ix3 b h q)
      = ⨆ k : Fin 2048, Attention.score (Attention.proj x Wq bq) (Attention.proj x Wk bk) b h q k := by
  unfold Read.val_main_v22
  refine (Host.reduce_eq_fold_single (FloatOps.maximumf (F := Ideal) (φ := .f32)) _ _
    reducesTo_S2x16x2048x2048_S2x16x2048_d3 reduces_d3 h_S_ (ix3 b h q)).trans ?_
  show (Finset.univ : Finset (Fin (S2x16x2048x2048.size 3))).fold max (Ideal.ofBits .f32 0xFF800000#32)
      (Read.val_main_v21 (F := Ideal) x Wq bq Wk bk ∘ reduces_d3.lift (ix3 b h q)) = _
  rw [MaxSup.neg_inf_f32, MaxSup.fold_max_bot_univ]
  refine iSup_congr fun k => ?_
  exact (congrArg (Read.val_main_v21 (F := Ideal) x Wq bq Wk bk) (lift_d3 b h q k)).trans
    (v21_at x Wq bq Wk bk b h q k)

/-- The further maximum with minus infinity leaves the supremum. -/
theorem v24_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (b : Fin 2) (h : Fin 16) (q : Fin 2048) :
    Read.val_main_v24 (F := Ideal) x Wq bq Wk bk (ix3 b h q)
      = ⨆ k : Fin 2048, Attention.score (Attention.proj x Wq bq) (Attention.proj x Wk bk) b h q k := by
  rw [Read.val_main_v24_apply, Read.val_main_v23_apply, Read.val_main_cst_1_apply, v22_at]
  show max (Ideal.ofBits .f32 0xFF800000#32) _ = _
  rw [MaxSup.neg_inf_f32]
  exact max_eq_right bot_le

theorem idx_v25v26 (b : Fin 2) (h : Fin 16) (q k : Fin 2048) :
    Read.idx_main_v25 (Read.idx_main_v26 (ix4 b h q k)) = ix3 b h q :=
  funext fun a => Fin.ext (by match a with | ⟨0, _⟩ => rfl | ⟨1, _⟩ => rfl | ⟨2, _⟩ => rfl)

theorem idx_v30v31 (b : Fin 2) (h : Fin 16) (q k : Fin 2048) :
    Read.idx_main_v30 (Read.idx_main_v31 (ix4 b h q k)) = ix3 b h q :=
  funext fun a => Fin.ext (by match a with | ⟨0, _⟩ => rfl | ⟨1, _⟩ => rfl | ⟨2, _⟩ => rfl)

theorem idx_v29 (b : Fin 2) (h : Fin 16) (q k : Fin 2048) :
    Read.idx_main_v29 (ix3 b h q) k = ix4 b h q k :=
  funext fun a => Fin.ext (by match a with | ⟨0, _⟩ => rfl | ⟨1, _⟩ => rfl | ⟨2, _⟩ => rfl | ⟨3, _⟩ => rfl)

/-- The shifted exponential at (batch, head, query position, key position). -/
theorem v28_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (b : Fin 2) (h : Fin 16) (q k : Fin 2048) :
    Read.val_main_v28 (F := Ideal) x Wq bq Wk bk (ix4 b h q k)
      = Attention.pexp (Attention.proj x Wq bq) (Attention.proj x Wk bk) b h q k := by
  rw [Read.val_main_v28_apply, Read.val_main_v27_apply, Read.val_main_v26_apply, Read.val_main_v25_apply, idx_v25v26,
    v24_at, v21_at]
  rfl

/-- The row sum of the shifted exponentials. -/
theorem v29_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (b : Fin 2) (h : Fin 16) (q : Fin 2048) :
    Read.val_main_v29 (F := Ideal) x Wq bq Wk bk (ix3 b h q)
      = ∑ k : Fin 2048, Attention.pexp (Attention.proj x Wq bq) (Attention.proj x Wk bk) b h q k := by
  rw [Read.val_main_v29_apply, Read.val_main_cst_2_apply]
  show Ideal.ofBits .f32 0x00000000#32 + _ = _
  rw [Attention.ofBits_zero, zero_add]
  refine Finset.sum_congr rfl fun k _ => ?_
  rw [idx_v29, v28_at]

/-- The weight at (batch, head, query position, key position). -/
theorem v32_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (b : Fin 2) (h : Fin 16) (q k : Fin 2048) :
    Read.val_main_v32 (F := Ideal) x Wq bq Wk bk (ix4 b h q k)
      = Attention.wgt (Attention.proj x Wq bq) (Attention.proj x Wk bk) b h q k := by
  rw [Read.val_main_v32_apply, Read.val_main_v31_apply, Read.val_main_v30_apply, idx_v30v31, v29_at, v28_at]
  rfl

/-- The reference's weights are the attention weights of the query and key projections. -/
theorem weights_eq (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) :
    Read.val_main_v32 (F := Ideal) x Wq bq Wk bk = Attention.weights (Attention.proj x Wq bq) (Attention.proj x Wk bk) := by
  funext i
  obtain ⟨b, h, q, k, rfl⟩ : ∃ (b : Fin 2) (h : Fin 16) (q k : Fin 2048), i = ix4 b h q k :=
    ⟨i 0, i 1, i 2, i 3, eq_ix4 i⟩
  rw [Attention.weights_apply, v32_at]

end Cert.ReferenceIdeal.RefValue

end
-- ==== Proof.RefOut.lean ====
import proofs.«122255_j2241972928905_2_alg».proof.Proof.Gen.ReferenceIdeal.Read
import proofs.«122255_j2241972928905_2_alg».proof.Proof.AttentionSpec
import proofs.«122255_j2241972928905_2_alg».proof.Proof.RefProj
import proofs.«122255_j2241972928905_2_alg».proof.Proof.RefWeights

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-!
  The output of the reference, read entry by entry.

  The batched product of the weights with the value heads over the key positions, transposed back to
  [2, 2048, 16, 64] and reshaped to [2, 2048, 1024]: feature e is lane e % 64 of head e / 64, so the entry at
  (batch b, position s, feature e) is the sum over key positions of the weights of head e / 64 times the values at e.
-/

/-- The reshape [2, 2048, 16, 64] → [2, 2048, 1024] reads (b, s, e) at (b, s, e / 64, e % 64). -/
theorem idx_v35 (b : Fin 2) (s : Fin 2048) (e : Fin 1024) :
    Read.idx_main_v35 (ix3 b s e) = ix4 b s (Attention.headOf e) (Attention.laneOf e) :=
  funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 1024 % 2048 = s.val; omega
    | ⟨2, _⟩ => show ((b.val * 2048 + s.val) * 1024 + e.val) / 64 % 16 = e.val / 64; omega
    | ⟨3, _⟩ => show ((b.val * 2048 + s.val) * 1024 + e.val) % 64 = e.val % 64; omega)

/-- The transpose [0, 2, 1, 3] reads (b, s, h, d) at (b, h, s, d). -/
theorem idx_v34 (b : Fin 2) (s : Fin 2048) (h : Fin 16) (d : Fin 64) :
    Read.idx_main_v34 (ix4 b s h d) = ix4 b h s d :=
  funext fun a => Fin.ext (by match a with | ⟨0, _⟩ => rfl | ⟨1, _⟩ => rfl | ⟨2, _⟩ => rfl | ⟨3, _⟩ => rfl)

theorem lidx_v33 (b : Fin 2) (h : Fin 16) (s : Fin 2048) (d : Fin 64) (k : Fin 2048) :
    Read.lidx_main_v33 (ix4 b h s d) k = ix4 b h s k :=
  funext fun a => Fin.ext (by match a with | ⟨0, _⟩ => rfl | ⟨1, _⟩ => rfl | ⟨2, _⟩ => rfl | ⟨3, _⟩ => rfl)

theorem ridx_v33 (b : Fin 2) (h : Fin 16) (s : Fin 2048) (d : Fin 64) (k : Fin 2048) :
    Read.ridx_main_v33 (ix4 b h s d) k = ix4 b h k d :=
  funext fun a => Fin.ext (by match a with | ⟨0, _⟩ => rfl | ⟨1, _⟩ => rfl | ⟨2, _⟩ => rfl | ⟨3, _⟩ => rfl)

/-- The weighted values at (batch, head, position, lane). -/
theorem v33_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (Wv : (⟨S1024x1024, .f32⟩ : BufTy).Contents (Elt Ideal))
    (bv : (⟨S1024, .f32⟩ : BufTy).Contents (Elt Ideal)) (b : Fin 2) (h : Fin 16) (s : Fin 2048) (d : Fin 64) :
    Read.val_main_v33 (F := Ideal) x Wq bq Wk bk Wv bv (ix4 b h s d)
      = ∑ k : Fin 2048, Attention.wgt (Attention.proj x Wq bq) (Attention.proj x Wk bk) b h s k * Attention.proj x Wv bv b k (Attention.col h d) := by
  rw [Read.val_main_v33_apply]
  refine Finset.sum_congr rfl fun k _ => ?_
  rw [lidx_v33, ridx_v33, v32_at, v17_at]

/-- The output at (batch, position, feature). -/
theorem v35_at (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (Wv : (⟨S1024x1024, .f32⟩ : BufTy).Contents (Elt Ideal))
    (bv : (⟨S1024, .f32⟩ : BufTy).Contents (Elt Ideal)) (b : Fin 2) (s : Fin 2048) (e : Fin 1024) :
    Read.val_main_v35 (F := Ideal) x Wq bq Wk bk Wv bv (ix3 b s e)
      = Attention.outv (Attention.proj x Wq bq) (Attention.proj x Wk bk) (Attention.proj x Wv bv) b s e := by
  rw [Read.val_main_v35_apply, idx_v35, Read.val_main_v34_apply, idx_v34, v33_at, Attention.col_headOf_laneOf]
  rfl

/-- The reference's output is the attention output of the three projections. -/
theorem out_eq (x : (⟨S2x2048x1024, .f32⟩ : BufTy).Contents (Elt Ideal)) (Wq : (⟨S1024x1024, .f32⟩ : BufTy).Contents (Elt Ideal))
    (bq : (⟨S1024, .f32⟩ : BufTy).Contents (Elt Ideal)) (Wk : (⟨S1024x1024, .f32⟩ : BufTy).Contents (Elt Ideal))
    (bk : (⟨S1024, .f32⟩ : BufTy).Contents (Elt Ideal)) (Wv : (⟨S1024x1024, .f32⟩ : BufTy).Contents (Elt Ideal))
    (bv : (⟨S1024, .f32⟩ : BufTy).Contents (Elt Ideal)) :
    Read.val_main_v35 (F := Ideal) x Wq bq Wk bk Wv bv
      = Attention.out3 (Attention.proj x Wq bq) (Attention.proj x Wk bk) (Attention.proj x Wv bv) := by
  funext i
  obtain ⟨b, s, e, rfl⟩ : ∃ (b : Fin 2) (s : Fin 2048) (e : Fin 1024), i = ix3 b s e := ⟨i 0, i 1, i 2, eq_ix3 i⟩
  rw [Attention.out3_apply, v35_at]

end Cert.ReferenceIdeal.RefValue

end
-- ==== Proof.RefAttention.lean ====
import proofs.«122255_j2241972928905_2_alg».proof.Proof.RefWeights
import proofs.«122255_j2241972928905_2_alg».proof.Proof.RefOut

/-!
  The reference as multi-head attention.

  The two results of the reference program, as functions of its seven arguments, are the attention weights of the query
  and key projections and the attention output of the three projections:
  `Cert.ReferenceIdeal.RefValue.weights_eq` and `Cert.ReferenceIdeal.RefValue.out_eq`. The entrywise readings they
  rest on are in the modules imported here: the projections split into heads, the scaled scores, the weights along the
  key positions, and the weighted values merged back into features.
-/
-- ==== Proof.lean ====
/-
  Multi-head self-attention: a two-kernel implementation against its plain reference, over the extended reals.

  Both programs project the input three times (`x · Wᵀ + b`), split the 1024 features into 16 heads of 64 lanes, score
  every query position against every key position of the same batch and head by the inner product of the lanes times
  one eighth (the kernel multiplies by `0.125`, the reference divides by `sqrt 64`: the same on every extended real),
  turn each row of scores into weights by the shifted exponential over its row sum, and weight the values. The kernel
  does it on flat `[4096, 1024]` arrays, 512 rows at a time for the projections and one (batch, head pair, query
  tile) at a time for the attention; the reference on `[2, 16, 2048, 64]` arrays. Entry by entry both results are the
  same sums, suprema and quotients of the same entries of the arguments, so no finiteness is needed: the precondition
  is never opened.
-/
import proofs.«122255_j2241972928905_2_alg».proof.Defs
import proofs.«122255_j2241972928905_2_alg».proof.Proof.Gen.Kernel
import proofs.«122255_j2241972928905_2_alg».proof.Proof.Gen.Kernel.Skeleton
import proofs.«122255_j2241972928905_2_alg».proof.Proof.Gen.Kernel.Launch
import proofs.«122255_j2241972928905_2_alg».proof.Proof.Gen.Kernel.Points
import proofs.«122255_j2241972928905_2_alg».proof.Proof.Gen.Kernel.Frame
import proofs.«122255_j2241972928905_2_alg».proof.Proof.Gen.KernelIdeal
import proofs.«122255_j2241972928905_2_alg».proof.Proof.Gen.KernelIdeal.Skeleton
import proofs.«122255_j2241972928905_2_alg».proof.Proof.Gen.KernelIdeal.Launch
import proofs.«122255_j2241972928905_2_alg».proof.Proof.Gen.KernelIdeal.Points
import proofs.«122255_j2241972928905_2_alg».proof.Proof.Gen.KernelIdeal.Frame
import proofs.«122255_j2241972928905_2_alg».proof.Proof.Gen.ReferenceIdeal
import proofs.«122255_j2241972928905_2_alg».proof.Proof.Gen.ReferenceIdeal.Run
import proofs.«122255_j2241972928905_2_alg».proof.Proof.Gen.ReferenceIdeal.Read
import proofs.«122255_j2241972928905_2_alg».proof.Proof.Gen.Pre_finite_inputs
import proofs.«122255_j2241972928905_2_alg».proof.Proof.KernelValue
import proofs.«122255_j2241972928905_2_alg».proof.Proof.RefAttention
import Idealize.ShloMosaic.Adequacy
import Idealize.ShloMosaic.Init

noncomputable section

namespace Cert.Proof

open Idealize.ShloMosaic Idealize.SL.Sem

/-- The kernel as printed runs and leaves its arguments alone. -/
theorem frame_k : @Cert.frame_Kernel Cert.Kernel.Gen.facts Cert.Pre_finite_inputs.Gen.facts :=
  fun m ρ _ => Cert.Kernel.Gen.frame m ρ

/-- So does the kernel read over the extended reals. -/
theorem frame_ki : @Cert.frame_KernelIdeal Cert.KernelIdeal.Gen.facts Cert.Pre_finite_inputs.Gen.facts :=
  fun m ρ _ => Cert.KernelIdeal.Gen.frame m ρ

/-- The reference is a straight line of host operations: its run, with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the attention output and the attention weights of the three projections of the input. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Attention.out3 (Cert.KernelIdeal.Results.Qa m c) (Cert.KernelIdeal.Results.Ka m c) (Cert.KernelIdeal.Results.Va m c),
    fun c => Attention.weights (Cert.KernelIdeal.Results.Qa m c) (Cert.KernelIdeal.Results.Ka m c), ?_, ?_⟩
  · refine (θ_run Cert.KernelIdeal.defs _ _).mono (fun r h c => ?_) (Cert.KernelIdeal.Results.run (F := Ideal) m ρ)
    obtain ⟨h12, h11, ha⟩ := h c
    exact ⟨h12.trans (Cert.KernelIdeal.Results.out_final m ρ c), h11.trans (Cert.KernelIdeal.Results.weights_final m ρ c), ha⟩
  · refine (θ_run Cert.ReferenceIdeal.defs _ _).mono (fun r h c => ?_) (Cert.ReferenceIdeal.Value.run (F := Ideal) m' ρ')
    obtain ⟨h35, h32, ha⟩ := h c
    obtain ⟨a0, a1, a2, a3, a4, a5, a6⟩ := hagree c
    refine ⟨?_, ?_, ha⟩
    · rw [h35, Cert.ReferenceIdeal.Read.val_main_v35_eq, Cert.ReferenceIdeal.RefValue.out_eq, a0, a1, a2, a3, a4, a5, a6]
    · rw [h32, Cert.ReferenceIdeal.Read.val_main_v32_eq, Cert.ReferenceIdeal.RefValue.weights_eq, a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
